-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v108)) (v3 : (c : Dev Cert.KernelIdeal.nD) → Buf (Elt Ideal) ((c.tc : Thread Cert.KernelIdeal.nD Cert.KernelIdeal.τ).loc Cert.KernelIdeal.main_v125)) (v4 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v108) = v2 c
          ∧ r.2.mem ((c.tc : Thread Cert.KernelIdeal.nD Cert.KernelIdeal.τ).loc Cert.KernelIdeal.main_v125) = v3 c
          ∧ r.2.mem ((c.tc : Thread Cert.KernelIdeal.nD Cert.KernelIdeal.τ).loc Cert.KernelIdeal.main_arg0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_v134) = v3 c
          ∧ r.2.mem ((c.tc : Thread Cert.ReferenceIdeal.nD Cert.ReferenceIdeal.τ).loc Cert.ReferenceIdeal.main_arg0) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S8192x16384 : Shape := ⟨2, ![8192, 16384]⟩
abbrev S16384x64 : Shape := ⟨2, ![16384, 64]⟩
abbrev S8192x64 : Shape := ⟨2, ![8192, 64]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S8192x64 : S_.BroadcastsInDim S8192x64 (![] : Fin 0 → Fin S8192x64.rank)
  reducesTo_S8192x64_S_d0_1 : S8192x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part3 {F : FTy → Type} [FloatOps F] (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  main_v53

def fn_part2 {F : FTy → Type} [FloatOps F] (main_arg10 : FVec F S2x64x64 .f32) (main_arg11 : FVec F S2x64 .f32) (main_arg12 : FVec F S2x64x64 .f32) (main_arg13 : FVec F S2x64 .f32) (main_v33 : IVec S_ 1) : IVec S_ 1 :=
  let main_v34 : FVec F S2x64x64 .f32 := Host.absf main_arg10
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64 .f32 := Host.absf main_arg11
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64x64 .f32 := Host.absf main_arg12
  let main_cst_16 : FVec F S_ .f32 := constant S_ .f32 0x7F800000#32
  let main_v45 : FVec F S2x64x64 .f32 := broadcastInDim S2x64x64 ![] bcast_S_S2x64x64 main_cst_16
  let main_v46 : IVec S2x64x64 1 := cmpf .olt main_v44 main_v45
  let main_c_17 : IVec S_ 1 := constantI S_ 1 1#1
  let main_v47 : IVec S_ 1 := (fun x v => Host.reduce IntOp.andi x v reducesTo_S2x64x64_S_d0_1_2 h_S_) main_v46 main_c_17
  let main_v48 : IVec S_ 1 := andi main_v43 main_v47
  let main_v49 : FVec F S2x64 .f32 := Host.absf main_arg13
  let main_cst_18 : FVec F S_ .f32 := constant S_ .f32 0x7F800000#32
  let main_v50 : FVec F S2x64 .f32 := broadcastInDim S2x64 ![] bcast_S_S2x64 main_cst_18
  fn_part3 (F := F) main_v48 main_v49 main_v50

def fn_part1 {F : FTy → Type} [FloatOps F] (main_arg7 : FVec F S8192x64 .f32) (main_arg8 : FVec F S64x64 .f32) (main_arg9 : FVec F S64 .f32) (main_arg10 : FVec F S2x64x64 .f32) (main_arg11 : FVec F S2x64 .f32) (main_arg12 : FVec F S2x64x64 .f32) (main_arg13 : FVec F S2x64 .f32) (main_v13 : IVec S_ 1) (main_v16 : IVec S16384x64 1) : IVec S_ 1 :=
  let main_c_5 : IVec S_ 1 := constantI S_ 1 1#1
  let main_v17 : IVec S_ 1 := (fun x v => Host.reduce IntOp.andi x v reducesTo_S16384x64_S_d0_1 h_S_) main_v16 main_c_5
  let main_v18 : IVec S_ 1 := andi main_v13 main_v17
  let main_v19 : FVec F S8192x64 .f32 := Host.absf main_arg7
  let main_cst_6 : FVec F S_ .f32 := constant S_ .f32 0x7F800000#32
  let main_v20 : FVec F S8192x64 .f32 := broadcastInDim S8192x64 ![] bcast_S_S8192x64 main_cst_6
  let main_v21 : IVec S8192x64 1 := cmpf .olt main_v19 main_v20
  let main_c_7 : IVec S_ 1 := constantI S_ 1 1#1
  let main_v22 : IVec S_ 1 := (fun x v => Host.reduce IntOp.andi x v reducesTo_S8192x64_S_d0_1 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_v33

def fn {F : FTy → Type} [FloatOps F] (main_arg0 : IVec S4096 32) (main_arg1 : IVec S4096 32) (main_arg2 : IVec S4096 32) (main_arg3 : FVec F S8192x16384 .f32) (main_arg4 : FVec F S16384x64 .f32) (main_arg5 : FVec F S8192x64 .f32) (main_arg6 : FVec F S16384x64 .f32) (main_arg7 : FVec F S8192x64 .f32) (main_arg8 : FVec F S64x64 .f32) (main_arg9 : FVec F S64 .f32) (main_arg10 : FVec F S2x64x64 .f32) (main_arg11 : FVec F S2x64 .f32) (main_arg12 : FVec F S2x64x64 .f32) (main_arg13 : FVec F S2x64 .f32) : IVec S_ 1 :=
  let main_v0 : FVec F S8192x16384 .f32 := Host.absf main_arg3
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  let main_v4 : FVec F S16384x64 .f32 := Host.absf main_arg4
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S8192x64 .f32 := Host.absf main_arg5
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S16384x64 .f32 := Host.absf main_arg6
  let main_cst_4 : FVec F S_ .f32 := constant S_ .f32 0x7F800000#32
  let main_v15 : FVec F S16384x64 .f32 := broadcastInDim S16384x64 ![] bcast_S_S16384x64 main_cst_4
  let main_v16 : IVec S16384x64 1 := cmpf .olt main_v14 main_v15
  fn_part1 (F := F) main_arg7 main_arg8 main_arg9 main_arg10 main_arg11 main_arg12 main_arg13 main_v13 main_v16
-- ==== Kernel.lean ====
abbrev S4096 : Shape := ⟨1, ![4096]⟩
abbrev S8192x16384 : Shape := ⟨2, ![8192, 16384]⟩
abbrev S16384x64 : Shape := ⟨2, ![16384, 64]⟩
abbrev S8192x64 : Shape := ⟨2, ![8192, 64]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S_ : Shape := ⟨0, ![]⟩
abbrev S4096x1 : Shape := ⟨2, ![4096, 1]⟩
abbrev S4096x64 : Shape := ⟨2, ![4096, 64]⟩
abbrev S1x64x64 : Shape := ⟨3, ![1, 64, 64]⟩
abbrev S1x64 : Shape := ⟨2, ![1, 64]⟩
abbrev S1024x64 : Shape := ⟨2, ![1024, 64]⟩
abbrev S1024x1024 : Shape := ⟨2, ![1024, 1024]⟩
abbrev S64x1024 : Shape := ⟨2, ![64, 1024]⟩

abbrev nBuf : Space → Nat
  | .hbm => 160
  | .vmem => 11
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S8192x16384, .f32⟩
  | 4 => ⟨S16384x64, .f32⟩
  | 5 => ⟨S8192x64, .f32⟩
  | 6 => ⟨S16384x64, .f32⟩
  | 7 => ⟨S8192x64, .f32⟩
  | 8 => ⟨S64x64, .f32⟩
  | 9 => ⟨S64, .f32⟩
  | 10 => ⟨S2x64x64, .f32⟩
  | 11 => ⟨S2x64, .f32⟩
  | 12 => ⟨S2x64x64, .f32⟩
  | 13 => ⟨S2x64, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096x64, .f32⟩
  | 23 => ⟨S1x64x64, .f32⟩
  | 24 => ⟨S64x64, .f32⟩
  | 25 => ⟨S64x64, .f32⟩
  | 26 => ⟨S4096x64, .f32⟩
  | 27 => ⟨S1x64, .f32⟩
  | 28 => ⟨S64, .f32⟩
  | 29 => ⟨S1x64, .f32⟩
  | 30 => ⟨S4096x64, .f32⟩
  | 31 => ⟨S4096x64, .f32⟩
  | 32 => ⟨S1x64x64, .f32⟩
  | 33 => ⟨S64x64, .f32⟩
  | 34 => ⟨S64x64, .f32⟩
  | 35 => ⟨S4096x64, .f32⟩
  | 36 => ⟨S1x64, .f32⟩
  | 37 => ⟨S64, .f32⟩
  | 38 => ⟨S1x64, .f32⟩
  | 39 => ⟨S4096x64, .f32⟩
  | 40 => ⟨S4096x64, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S4096x64, .f32⟩
  | 50 => ⟨S1x64x64, .f32⟩
  | 51 => ⟨S64x64, .f32⟩
  | 52 => ⟨S64x64, .f32⟩
  | 53 => ⟨S4096x64, .f32⟩
  | 54 => ⟨S1x64, .f32⟩
  | 55 => ⟨S64, .f32⟩
  | 56 => ⟨S1x64, .f32⟩
  | 57 => ⟨S4096x64, .f32⟩
  | 58 => ⟨S4096x64, .f32⟩
  | 59 => ⟨S1x64x64, .f32⟩
  | 60 => ⟨S64x64, .f32⟩
  | 61 => ⟨S64x64, .f32⟩
  | 62 => ⟨S4096x64, .f32⟩
  | 63 => ⟨S1x64, .f32⟩
  | 64 => ⟨S64, .f32⟩
  | 65 => ⟨S1x64, .f32⟩
  | 66 => ⟨S4096x64, .f32⟩
  | 67 => ⟨S4096x64, .f32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S4096x1, .i32⟩
  | 76 => ⟨S4096x64, .f32⟩
  | 77 => ⟨S1x64x64, .f32⟩
  | 78 => ⟨S64x64, .f32⟩
  | 79 => ⟨S64x64, .f32⟩
  | 80 => ⟨S4096x64, .f32⟩
  | 81 => ⟨S1x64, .f32⟩
  | 82 => ⟨S64, .f32⟩
  | 83 => ⟨S1x64, .f32⟩
  | 84 => ⟨S4096x64, .f32⟩
  | 85 => ⟨S4096x64, .f32⟩
  | 86 => ⟨S1x64x64, .f32⟩
  | 87 => ⟨S64x64, .f32⟩
  | 88 => ⟨S64x64, .f32⟩
  | 89 => ⟨S4096x64, .f32⟩
  | 90 => ⟨S1x64, .f32⟩
  | 91 => ⟨S64, .f32⟩
  | 92 => ⟨S1x64, .f32⟩
  | 93 => ⟨S4096x64, .f32⟩
  | 94 => ⟨S4096x64, .f32⟩
  | 95 => ⟨S4096x64, .f32⟩
  | 96 => ⟨S_, .f32⟩
  | 97 => ⟨S4096, .f32⟩
  | 98 => ⟨S4096x64, .f32⟩
  | 99 => ⟨S_, .f32⟩
  | 100 => ⟨S4096, .f32⟩
  | 101 => ⟨S64x64, .f32⟩
  | 102 => ⟨S16384x64, .f32⟩
  | 103 => ⟨S1x64, .f32⟩
  | 104 => ⟨S16384x64, .f32⟩
  | 105 => ⟨S16384x64, .f32⟩
  | 106 => ⟨S8192x64, .f32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S4096x1, .i32⟩
  | 115 => ⟨S4096x64, .f32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S4096x1, .i32⟩
  | 124 => ⟨S4096x64, .f32⟩
  | 125 => ⟨S4096x64, .f32⟩
  | 126 => ⟨S_, .i32⟩
  | 127 => ⟨S4096, .i32⟩
  | _ => ⟨S4096, .i32⟩

abbrev hbmTy0_1 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S4096x1, .i32⟩
  | 6 => ⟨S4096x64, .f32⟩
  | 7 => ⟨S4096x64, .f32⟩
  | 8 => ⟨S_, .f32⟩
  | 9 => ⟨S4096, .f32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S4096x64, .f32⟩
  | 19 => ⟨S4096x64, .f32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S4096x64, .f32⟩
  | 29 => ⟨S4096x64, .f32⟩
  | 30 => ⟨S_, .f32⟩
  | 31 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_3 : Ref sig .tc := ⟨.hbm, 68, rfl⟩
abbrev main_v50 : Ref sig .tc := ⟨.hbm, 69, rfl⟩
abbrev main_v51 : Ref sig .tc := ⟨.hbm, 70, rfl⟩
abbrev main_c_4 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst : Ref sig .tc := ⟨.hbm, 96, rfl⟩
abbrev main_v76 : Ref sig .tc := ⟨.hbm, 97, rfl⟩
abbrev main_v77 : Ref sig .tc := ⟨.hbm, 98, rfl⟩
abbrev main_cst_5 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_6 : Ref sig .tc := ⟨.hbm, 107, rfl⟩
abbrev main_v85 : Ref sig .tc := ⟨.hbm, 108, rfl⟩
abbrev main_v86 : Ref sig .tc := ⟨.hbm, 109, rfl⟩
abbrev main_c_7 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_c_8 : Ref sig .tc := ⟨.hbm, 116, rfl⟩
abbrev main_v92 : Ref sig .tc := ⟨.hbm, 117, rfl⟩
abbrev main_v93 : Ref sig .tc := ⟨.hbm, 118, rfl⟩
abbrev main_c_9 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_c_10 : Ref sig .tc := ⟨.hbm, 126, rfl⟩
abbrev main_v100 : Ref sig .tc := ⟨.hbm, 127, rfl⟩
abbrev main_v101 : Ref sig .tc := ⟨.hbm, 128, rfl⟩
abbrev main_c_11 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_12 : Ref sig .tc := ⟨.hbm, 136, rfl⟩
abbrev main_v108 : Ref sig .tc := ⟨.hbm, 137, rfl⟩
abbrev main_c_13 : Ref sig .tc := ⟨.hbm, 138, rfl⟩
abbrev main_v109 : Ref sig .tc := ⟨.hbm, 139, rfl⟩
abbrev main_v110 : Ref sig .tc := ⟨.hbm, 140, rfl⟩
abbrev main_c_14 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_c_15 : Ref sig .tc := ⟨.hbm, 148, rfl⟩
abbrev main_v117 : Ref sig .tc := ⟨.hbm, 149, rfl⟩
abbrev main_v118 : Ref sig .tc := ⟨.hbm, 150, rfl⟩
abbrev main_c_16 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_17 : Ref sig .tc := ⟨.hbm, 158, rfl⟩
abbrev main_v125 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S2x64x64_S1x64x64_1_0_0 : S2x64x64.Slices ![1, 0, 0] S1x64x64
  slices_S2x64_S1x64_1_0 : S2x64.Slices ![1, 0] S1x64
  reducesTo_S4096x64_S4096_d1 : S4096x64.ReducesTo [1] S4096
  h_S_ : 0 < S_.numel
  bcast_S1x64_S16384x64_0_1 : S1x64.BroadcastsInDim S16384x64 (![0, 1] : Fin 2 → Fin S16384x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  gather_S16384x64_S4096x1_S4096x64_1_0_n_n_0_1_164_wf : GatherDims.WF S16384x64 S4096x1 S4096x64 [1] [0] [] [0] [] 1 ![1, 64]
  dot_S4096x64_S64x64_S4096x64_1_0_0_1_n_n_wf : DotDims.WF S4096x64 S64x64 S4096x64 [1] [0] [0] [1] [] []
  gather_S8192x64_S4096x1_S4096x64_1_0_n_n_0_1_164_wf : GatherDims.WF S8192x64 S4096x1 S4096x64 [1] [0] [] [0] [] 1 ![1, 64]
  dot_S16384x64_S64x64_S16384x64_1_0_0_1_n_n_wf : DotDims.WF S16384x64 S64x64 S16384x64 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x16384.size a
  hwx0_2 : ∀ i : grid0.Coords, EltTy.bits .f32 = 32 ∨ (Rect.block (s := S8192x16384) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .f32 = 32 ∨ (Rect.block (s := S16384x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)

variable [Facts₀]

def gather_S16384x64_S4096x1_S4096x64_1_0_n_n_0_1_164 : GatherDims S16384x64 S4096x1 S4096x64 where
  offsetDims := [1]
  collapsedSliceDims := [0]
  operandBatchingDims := []
  startIndicesBatchingDims := []
  startIndexMap := [0]
  indexVectorDim := 1
  sliceSizes := ![1, 64]
  wf := gather_S16384x64_S4096x1_S4096x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def gather_S8192x64_S4096x1_S4096x64_1_0_n_n_0_1_164 : GatherDims S8192x64 S4096x1 S4096x64 where
  offsetDims := [1]
  collapsedSliceDims := [0]
  operandBatchingDims := []
  startIndicesBatchingDims := []
  startIndexMap := [0]
  indexVectorDim := 1
  sliceSizes := ![1, 64]
  wf := gather_S8192x64_S4096x1_S4096x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg7) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v83) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v84) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096 : Shape := ⟨1, ![4096]⟩
abbrev S8192x16384 : Shape := ⟨2, ![8192, 16384]⟩
abbrev S16384x64 : Shape := ⟨2, ![16384, 64]⟩
abbrev S8192x64 : Shape := ⟨2, ![8192, 64]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S_ : Shape := ⟨0, ![]⟩
abbrev S4096x1 : Shape := ⟨2, ![4096, 1]⟩
abbrev S4096x64 : Shape := ⟨2, ![4096, 64]⟩
abbrev S1x64x64 : Shape := ⟨3, ![1, 64, 64]⟩
abbrev S1x64 : Shape := ⟨2, ![1, 64]⟩
abbrev S64x16384 : Shape := ⟨2, ![64, 16384]⟩

abbrev nBuf : Space → Nat
  | .hbm => 171
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S8192x16384, .f32⟩
  | 4 => ⟨S16384x64, .f32⟩
  | 5 => ⟨S8192x64, .f32⟩
  | 6 => ⟨S16384x64, .f32⟩
  | 7 => ⟨S8192x64, .f32⟩
  | 8 => ⟨S64x64, .f32⟩
  | 9 => ⟨S64, .f32⟩
  | 10 => ⟨S2x64x64, .f32⟩
  | 11 => ⟨S2x64, .f32⟩
  | 12 => ⟨S2x64x64, .f32⟩
  | 13 => ⟨S2x64, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096x64, .f32⟩
  | 23 => ⟨S1x64x64, .f32⟩
  | 24 => ⟨S64x64, .f32⟩
  | 25 => ⟨S64x64, .f32⟩
  | 26 => ⟨S4096x64, .f32⟩
  | 27 => ⟨S1x64, .f32⟩
  | 28 => ⟨S64, .f32⟩
  | 29 => ⟨S1x64, .f32⟩
  | 30 => ⟨S4096x64, .f32⟩
  | 31 => ⟨S4096x64, .f32⟩
  | 32 => ⟨S1x64x64, .f32⟩
  | 33 => ⟨S64x64, .f32⟩
  | 34 => ⟨S64x64, .f32⟩
  | 35 => ⟨S4096x64, .f32⟩
  | 36 => ⟨S1x64, .f32⟩
  | 37 => ⟨S64, .f32⟩
  | 38 => ⟨S1x64, .f32⟩
  | 39 => ⟨S4096x64, .f32⟩
  | 40 => ⟨S4096x64, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S4096x64, .f32⟩
  | 50 => ⟨S1x64x64, .f32⟩
  | 51 => ⟨S64x64, .f32⟩
  | 52 => ⟨S64x64, .f32⟩
  | 53 => ⟨S4096x64, .f32⟩
  | 54 => ⟨S1x64, .f32⟩
  | 55 => ⟨S64, .f32⟩
  | 56 => ⟨S1x64, .f32⟩
  | 57 => ⟨S4096x64, .f32⟩
  | 58 => ⟨S4096x64, .f32⟩
  | 59 => ⟨S1x64x64, .f32⟩
  | 60 => ⟨S64x64, .f32⟩
  | 61 => ⟨S64x64, .f32⟩
  | 62 => ⟨S4096x64, .f32⟩
  | 63 => ⟨S1x64, .f32⟩
  | 64 => ⟨S64, .f32⟩
  | 65 => ⟨S1x64, .f32⟩
  | 66 => ⟨S4096x64, .f32⟩
  | 67 => ⟨S4096x64, .f32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S4096x1, .i32⟩
  | 76 => ⟨S4096x64, .f32⟩
  | 77 => ⟨S1x64x64, .f32⟩
  | 78 => ⟨S64x64, .f32⟩
  | 79 => ⟨S64x64, .f32⟩
  | 80 => ⟨S4096x64, .f32⟩
  | 81 => ⟨S1x64, .f32⟩
  | 82 => ⟨S64, .f32⟩
  | 83 => ⟨S1x64, .f32⟩
  | 84 => ⟨S4096x64, .f32⟩
  | 85 => ⟨S4096x64, .f32⟩
  | 86 => ⟨S1x64x64, .f32⟩
  | 87 => ⟨S64x64, .f32⟩
  | 88 => ⟨S64x64, .f32⟩
  | 89 => ⟨S4096x64, .f32⟩
  | 90 => ⟨S1x64, .f32⟩
  | 91 => ⟨S64, .f32⟩
  | 92 => ⟨S1x64, .f32⟩
  | 93 => ⟨S4096x64, .f32⟩
  | 94 => ⟨S4096x64, .f32⟩
  | 95 => ⟨S4096x64, .f32⟩
  | 96 => ⟨S_, .f32⟩
  | 97 => ⟨S4096, .f32⟩
  | 98 => ⟨S4096x64, .f32⟩
  | 99 => ⟨S_, .f32⟩
  | 100 => ⟨S4096, .f32⟩
  | 101 => ⟨S64x64, .f32⟩
  | 102 => ⟨S16384x64, .f32⟩
  | 103 => ⟨S1x64, .f32⟩
  | 104 => ⟨S16384x64, .f32⟩
  | 105 => ⟨S16384x64, .f32⟩
  | 106 => ⟨S64x16384, .f32⟩
  | 107 => ⟨S8192x16384, .f32⟩
  | 108 => ⟨S8192x16384, .f32⟩
  | 109 => ⟨S8192x16384, .f32⟩
  | 110 => ⟨S_, .f32⟩
  | 111 => ⟨S8192x16384, .f32⟩
  | 112 => ⟨S8192x16384, .f32⟩
  | 113 => ⟨S_, .f32⟩
  | 114 => ⟨S8192x16384, .f32⟩
  | 115 => ⟨S8192x16384, .f32⟩
  | 116 => ⟨S8192x16384, .f32⟩
  | 117 => ⟨S8192x64, .f32⟩
  | 118 => ⟨S_, .i32⟩
  | 119 => ⟨S4096, .i32⟩
  | 120 => ⟨S4096, .i1⟩
  | 121 => ⟨S_, .i32⟩
  | 122 => ⟨S4096, .i32⟩
  | 123 => ⟨S4096, .i32⟩
  | 124 => ⟨S4096, .i32⟩
  | 125 => ⟨S4096x1, .i32⟩
  | 126 => ⟨S4096x64, .f32⟩
  | 127 => ⟨S_, .i32⟩
  | _ => ⟨S4096, .i32⟩

abbrev hbmTy0_1 (i : Nat) : BufTy := match i % 128 with
  | 0 => ⟨S4096, .i32⟩
  | 1 => ⟨S4096, .i1⟩
  | 2 => ⟨S_, .i32⟩
  | 3 => ⟨S4096, .i32⟩
  | 4 => ⟨S4096, .i32⟩
  | 5 => ⟨S4096, .i32⟩
  | 6 => ⟨S4096x1, .i32⟩
  | 7 => ⟨S4096x64, .f32⟩
  | 8 => ⟨S4096x64, .f32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S4096x64, .f32⟩
  | 18 => ⟨S4096x64, .f32⟩
  | 19 => ⟨S_, .f32⟩
  | 20 => ⟨S4096, .f32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S4096x64, .f32⟩
  | 30 => ⟨S4096x64, .f32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S4096x64, .f32⟩
  | 40 => ⟨S4096x64, .f32⟩
  | 41 => ⟨S_, .f32⟩
  | 42 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_3 : Ref sig .tc := ⟨.hbm, 68, rfl⟩
abbrev main_v50 : Ref sig .tc := ⟨.hbm, 69, rfl⟩
abbrev main_v51 : Ref sig .tc := ⟨.hbm, 70, rfl⟩
abbrev main_c_4 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst : Ref sig .tc := ⟨.hbm, 96, rfl⟩
abbrev main_v76 : Ref sig .tc := ⟨.hbm, 97, rfl⟩
abbrev main_v77 : Ref sig .tc := ⟨.hbm, 98, rfl⟩
abbrev main_cst_5 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_6 : Ref sig .tc := ⟨.hbm, 110, rfl⟩
abbrev main_v88 : Ref sig .tc := ⟨.hbm, 111, rfl⟩
abbrev main_v89 : Ref sig .tc := ⟨.hbm, 112, rfl⟩
abbrev main_cst_7 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_c_8 : Ref sig .tc := ⟨.hbm, 118, rfl⟩
abbrev main_v94 : Ref sig .tc := ⟨.hbm, 119, rfl⟩
abbrev main_v95 : Ref sig .tc := ⟨.hbm, 120, rfl⟩
abbrev main_c_9 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_c_10 : Ref sig .tc := ⟨.hbm, 127, rfl⟩
abbrev main_v101 : Ref sig .tc := ⟨.hbm, 128, rfl⟩
abbrev main_v102 : Ref sig .tc := ⟨.hbm, 129, rfl⟩
abbrev main_c_11 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_c_12 : Ref sig .tc := ⟨.hbm, 137, rfl⟩
abbrev main_v109 : Ref sig .tc := ⟨.hbm, 138, rfl⟩
abbrev main_v110 : Ref sig .tc := ⟨.hbm, 139, rfl⟩
abbrev main_c_13 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_14 : Ref sig .tc := ⟨.hbm, 147, rfl⟩
abbrev main_v117 : Ref sig .tc := ⟨.hbm, 148, rfl⟩
abbrev main_c_15 : Ref sig .tc := ⟨.hbm, 149, rfl⟩
abbrev main_v118 : Ref sig .tc := ⟨.hbm, 150, rfl⟩
abbrev main_v119 : Ref sig .tc := ⟨.hbm, 151, rfl⟩
abbrev main_c_16 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_c_17 : Ref sig .tc := ⟨.hbm, 159, rfl⟩
abbrev main_v126 : Ref sig .tc := ⟨.hbm, 160, rfl⟩
abbrev main_v127 : Ref sig .tc := ⟨.hbm, 161, rfl⟩
abbrev main_c_18 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_19 : Ref sig .tc := ⟨.hbm, 169, rfl⟩
abbrev main_v134 : Ref sig .tc := ⟨.hbm, 170, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S2x64x64_S1x64x64_1_0_0 : S2x64x64.Slices ![1, 0, 0] S1x64x64
  slices_S2x64_S1x64_1_0 : S2x64.Slices ![1, 0] S1x64
  reducesTo_S4096x64_S4096_d1 : S4096x64.ReducesTo [1] S4096
  h_S_ : 0 < S_.numel
  bcast_S1x64_S16384x64_0_1 : S1x64.BroadcastsInDim S16384x64 (![0, 1] : Fin 2 → Fin S16384x64.rank)
  transposes_S16384x64_S64x16384_1_0 : S16384x64.Transposes [1, 0] S64x16384
  bcast_S_S8192x16384 : S_.BroadcastsInDim S8192x16384 (![] : Fin 0 → Fin S8192x16384.rank)
  gather_S16384x64_S4096x1_S4096x64_1_0_n_n_0_1_164_wf : GatherDims.WF S16384x64 S4096x1 S4096x64 [1] [0] [] [0] [] 1 ![1, 64]
  dot_S4096x64_S64x64_S4096x64_1_0_0_1_n_n_wf : DotDims.WF S4096x64 S64x64 S4096x64 [1] [0] [0] [1] [] []
  gather_S8192x64_S4096x1_S4096x64_1_0_n_n_0_1_164_wf : GatherDims.WF S8192x64 S4096x1 S4096x64 [1] [0] [] [0] [] 1 ![1, 64]
  dot_S16384x64_S64x64_S16384x64_1_0_0_1_n_n_wf : DotDims.WF S16384x64 S64x64 S16384x64 [1] [0] [0] [1] [] []
  dot_S8192x64_S64x16384_S8192x16384_1_0_0_1_n_n_wf : DotDims.WF S8192x64 S64x16384 S8192x16384 [1] [0] [0] [1] [] []
  dot_S8192x16384_S16384x64_S8192x64_1_0_0_1_n_n_wf : DotDims.WF S8192x16384 S16384x64 S8192x64 [1] [0] [0] [1] [] []

variable [Facts₀]

def gather_S16384x64_S4096x1_S4096x64_1_0_n_n_0_1_164 : GatherDims S16384x64 S4096x1 S4096x64 where
  offsetDims := [1]
  collapsedSliceDims := [0]
  operandBatchingDims := []
  startIndicesBatchingDims := []
  startIndexMap := [0]
  indexVectorDim := 1
  sliceSizes := ![1, 64]
  wf := gather_S16384x64_S4096x1_S4096x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def gather_S8192x64_S4096x1_S4096x64_1_0_n_n_0_1_164 : GatherDims S8192x64 S4096x1 S4096x64 where
  offsetDims := [1]
  collapsedSliceDims := [0]
  operandBatchingDims := []
  startIndicesBatchingDims := []
  startIndexMap := [0]
  indexVectorDim := 1
  sliceSizes := ![1, 64]
  wf := gather_S8192x64_S4096x1_S4096x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S8192x64_S64x16384_S8192x16384_1_0_0_1_n_n : DotDims S8192x64 S64x16384 S8192x16384 where
  lhsContracting := [1]
  rhsContracting := [0]
  lhsNonContracting := [0]
  rhsNonContracting := [1]
  lhsBatch := []
  rhsBatch := []
  wf := dot_S8192x64_S64x16384_S8192x16384_1_0_0_1_n_n_wf
def dot_S8192x16384_S16384x64_S8192x64_1_0_0_1_n_n : DotDims S8192x16384 S16384x64 S8192x64 where
  lhsContracting := [1]
  rhsContracting := [0]
  lhsNonContracting := [0]
  rhsNonContracting := [1]
  lhsBatch := []
  rhsBatch := []
  wf := dot_S8192x16384_S16384x64_S8192x64_1_0_0_1_n_n_wf

class Facts : Prop extends Facts₀ where

variable [Facts]
-- ==== Proof.KernelPieces.lean ====
/-
  What one grid point leaves behind, as values.

  The body keeps a running block `acc` in a scratch buffer. At a row block's first user block it stores the zero
  block and then `0 + step`; at every later user block it stores `acc + step`, where `step` is the weighted sum
  of this point's user block (the second payload below is `acc + step` as one term of the five blocks it loads).
  At the row block's last user block it also copies the scratch, as just stored, into the output block.

  Here each case's stores are read back as that one term: the scratch after the first case is the accumulate
  step taken from the zero block, after the other two it is the step taken from what the point before left,
  and the output block of the last case is the same block as its scratch. The statements hold for any float
  semantics: they only say which stored value is read back.
-/
import proofs.«153754_j90288802497140_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem origin : (![0, 0] : Fin 2 → Nat) = fun _ => 0 := funext fun a => by fin_cases a <;> rfl

/-- First user block of a row block: the scratch ends at the accumulate step taken from the zero block. -/
theorem scratch_first (c : Dev nD) (i : grid0.Coords) (a2 : Memref sig .tc .vmem S1024x64 .f32) (h2 : a2.IsWhole) (a3 : Memref sig .tc .vmem S1024x64 .f32) (h3 : a3.IsWhole) (a4 : Memref sig .tc .vmem S1024x1024 .f32) (h4 : a4.IsWhole) (a5 : Memref sig .tc .vmem S1024x64 .f32) (h5 : a5.IsWhole) (a6 : Memref sig .tc .vmem S1024x64 .f32) (h6 : a6.IsWhole) (a7 : Memref sig .tc .vmem S1024x64 .f32) (h7 : a7.IsWhole) (hc0 : cond0_0 i) (hc1 : ¬cond0_1 i)
    (x0 : Vec F S1024x64 .f32) (x1 : Vec F S1024x64 .f32) (x2 : Vec F S1024x1024 .f32) (x3 : Vec F S1024x64 .f32) :
    sout0_A_0 c i a2 h2 a3 h3 a4 h4 a5 h5 a6 h6 a7 h7 hc0 hc1 x0 x1 x2 x3 = k0_pay2 x0 x1 x2 (k0_pay1 (F := F)) x3 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1024x64) origin, View.readCov_unit_zero (S := S1024x64) _ origin]
  simp only [View.readAt_eq_ld, h2.read_unread, h3.read_unread, h4.read_unread, h5.read_unread, View.ld_unit_zero (S := S1024x64) origin,
    View.ld_unit_zero (S := S1024x1024) origin]

/-- A middle user block: the scratch ends at the accumulate step taken from what the point before left. -/
theorem scratch_middle (c : Dev nD) (i : grid0.Coords) (a2 : Memref sig .tc .vmem S1024x64 .f32) (h2 : a2.IsWhole) (a3 : Memref sig .tc .vmem S1024x64 .f32) (h3 : a3.IsWhole) (a4 : Memref sig .tc .vmem S1024x1024 .f32) (h4 : a4.IsWhole) (a5 : Memref sig .tc .vmem S1024x64 .f32) (h5 : a5.IsWhole) (a6 : Memref sig .tc .vmem S1024x64 .f32) (h6 : a6.IsWhole) (a7 : Memref sig .tc .vmem S1024x64 .f32) (h7 : a7.IsWhole) (hc0 : ¬cond0_0 i) (hc1 : ¬cond0_1 i)
    (x0 : Vec F S1024x64 .f32) (x1 : Vec F S1024x64 .f32) (x2 : Vec F S1024x1024 .f32) (x3 : Vec F S1024x64 .f32) (xs0 : Vec F S1024x64 .f32) :
    sout0_B_0 c i a2 h2 a3 h3 a4 h4 a5 h5 a6 h6 a7 h7 hc0 hc1 x0 x1 x2 x3 xs0 = k0_pay2 x0 x1 x2 xs0 x3 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero origin]
  simp only [View.readAt_eq_ld, h2.read_unread, h3.read_unread, h4.read_unread, h5.read_unread, h7.read_unread,
    View.ld_unit_zero (S := S1024x64) origin, View.ld_unit_zero (S := S1024x1024) origin]

/-- The last user block: the scratch ends at the accumulate step taken from what the point before left … -/
theorem scratch_last (c : Dev nD) (i : grid0.Coords) (a2 : Memref sig .tc .vmem S1024x64 .f32) (h2 : a2.IsWhole) (a3 : Memref sig .tc .vmem S1024x64 .f32) (h3 : a3.IsWhole) (a4 : Memref sig .tc .vmem S1024x1024 .f32) (h4 : a4.IsWhole) (a5 : Memref sig .tc .vmem S1024x64 .f32) (h5 : a5.IsWhole) (a6 : Memref sig .tc .vmem S1024x64 .f32) (h6 : a6.IsWhole) (a7 : Memref sig .tc .vmem S1024x64 .f32) (h7 : a7.IsWhole) (hc0 : ¬cond0_0 i) (hc1 : cond0_1 i)
    (x0 : Vec F S1024x64 .f32) (x1 : Vec F S1024x64 .f32) (x2 : Vec F S1024x1024 .f32) (x3 : Vec F S1024x64 .f32) (xs0 : Vec F S1024x64 .f32) :
    sout0_C_0 c i a2 h2 a3 h3 a4 h4 a5 h5 a6 h6 a7 h7 hc0 hc1 x0 x1 x2 x3 xs0 = k0_pay2 x0 x1 x2 xs0 x3 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero origin]
  simp only [View.readAt_eq_ld, h2.read_unread, h3.read_unread, h4.read_unread, h5.read_unread, h7.read_unread,
    View.ld_unit_zero (S := S1024x64) origin, View.ld_unit_zero (S := S1024x1024) origin]

/-- … and the output block is that same block, copied out of the scratch. -/
theorem out_last (c : Dev nD) (i : grid0.Coords) (a2 : Memref sig .tc .vmem S1024x64 .f32) (h2 : a2.IsWhole) (a3 : Memref sig .tc .vmem S1024x64 .f32) (h3 : a3.IsWhole) (a4 : Memref sig .tc .vmem S1024x1024 .f32) (h4 : a4.IsWhole) (a5 : Memref sig .tc .vmem S1024x64 .f32) (h5 : a5.IsWhole) (a6 : Memref sig .tc .vmem S1024x64 .f32) (h6 : a6.IsWhole) (a7 : Memref sig .tc .vmem S1024x64 .f32) (h7 : a7.IsWhole) (hc0 : ¬cond0_0 i) (hc1 : cond0_1 i)
    (x0 : Vec F S1024x64 .f32) (x1 : Vec F S1024x64 .f32) (x2 : Vec F S1024x1024 .f32) (x3 : Vec F S1024x64 .f32) (xs0 : Vec F S1024x64 .f32) :
    out0_C_4 c i a2 h2 a3 h3 a4 h4 a5 h5 a6 h6 a7 h7 hc0 hc1 x0 x1 x2 x3 xs0 = k0_pay2 x0 x1 x2 xs0 x3 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero origin]
  simp only [View.readAt_eq_ld, h2.read_unread, h3.read_unread, h4.read_unread, h5.read_unread, h7.read_unread,
    View.ld_unit_zero (S := S1024x64) origin, View.ld_unit_zero (S := S1024x1024) origin]
  exact View.readCov_unit_zero (S := S1024x64) _ origin _ _

end Cert.KernelIdeal.Pieces

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibRunningTotal.lean ====
/-
  Regrouping a long sum into consecutive blocks, and a running total.

  In any additive commutative monoid a sum over the first `B * J` naturals is the sum, over `B` consecutive
  blocks, of the `J` terms of each block; and a total that starts at `0` and gains one block's sum per step
  has, after `n` steps, the sum of the first `n * J` terms. Nothing is asked of the terms: only
  associativity and commutativity of `+` and `0 + x = x` are used, so the statement holds on the extended
  reals with infinite terms as well.
-/
import Mathlib.Algebra.BigOperators.Fin
import Mathlib.Algebra.BigOperators.Intervals

open Finset BigOperators

namespace Cert.BlockSum

variable {M : Type*} [AddCommMonoid M]

/-- A sum over `B * J` consecutive naturals, cut into `B` blocks of `J`. -/
theorem sum_range_blocks (J : ℕ) (f : ℕ → M) :
    ∀ B : ℕ, ∑ u ∈ range (B * J), f u = ∑ b ∈ range B, ∑ k ∈ range J, f (b * J + k)
  | 0 => by simp
  | B + 1 => by
      rw [Nat.succ_mul, Finset.sum_range_add, sum_range_blocks J f B, Finset.sum_range_succ]

/-- The first `n` blocks summed one after the other, starting from `0`. -/
def runningTotal (J : ℕ) (f : ℕ → M) (n : ℕ) : M := ∑ b ∈ range n, ∑ k ∈ range J, f (b * J + k)

theorem runningTotal_zero (J : ℕ) (f : ℕ → M) : runningTotal J f 0 = 0 := by simp [runningTotal]

theorem runningTotal_succ (J : ℕ) (f : ℕ → M) (n : ℕ) :
    runningTotal J f (n + 1) = runningTotal J f n + ∑ k ∈ range J, f (n * J + k) := by
  simp [runningTotal, Finset.sum_range_succ]

/-- After all `B` blocks the running total is the whole sum. -/
theorem runningTotal_all (J : ℕ) (f : ℕ → M) (B : ℕ) : runningTotal J f B = ∑ u ∈ range (B * J), f u :=
  (sum_range_blocks J f B).symm

end Cert.BlockSum
-- ==== Proof.LibMaskedRelation.lean ====
/-
  The item–user relation as one function of its four arrays, and its evaluation block by block.

  For item features `S : I × D`, user keys `K : U × D`, an interaction mask `Mk : I × U` and user features
  `Us : U × E`, the weight of user `u` for item `i` is `σ(∑ₑ S[i,e]·K[u,e]) · Mk[i,u]` (`σ` the logistic
  function of the extended reals) and the relation is `R[i,q] = ∑ᵤ weight(i,u) · Us[u,q]`.

  A row's sum over the `B·J` users is cut into `B` consecutive blocks of `J`. Written over the naturals
  (`term`: the summand of user number `n`, zero past the last user) the whole sum is the running total of the
  block sums after all `B` blocks (`relation_eq_runningTotal`), and a block's sum read through a `J`-wide
  window at offset `b·J` is the next step of that running total (`block_sum`). Only regrouping of a finite sum in
  a commutative monoid is used: nothing is asked of the entries, which may be infinite.
-/
import Idealize.ShloMosaic.PureOps.Ideal
import Idealize.ShloMosaic.Lib.ValueIdx
import proofs.«153754_j90288802497140_1_alg».proof.Proof.LibRunningTotal

noncomputable section

open scoped BigOperators
open Finset

namespace Cert.Relation

open Idealize.ShloMosaic Idealize.ShloMosaic.ValueIdx Cert.BlockSum

/-- A matrix of extended reals. -/
abbrev Mat (a b : ℕ) := (⟨2, ![a, b]⟩ : Shape).Idx → EReal

variable {I U D E : ℕ}

/-- The weight of user `u` for item `i`: the logistic of the inner product of their feature rows, times the mask. -/
def weight (S : Mat I D) (K : Mat U D) (Mk : Mat I U) (i : Fin I) (u : Fin U) : EReal :=
  Ideal.logistic (∑ e : Fin D, S (ix2 i e) * K (ix2 u e)) * Mk (ix2 i u)

/-- The relation: each item's weighted sum of the users' feature rows. -/
def relation (S : Mat I D) (K : Mat U D) (Mk : Mat I U) (Us : Mat U E) : Mat I E :=
  fun j => ∑ u : Fin U, weight S K Mk (j 0) u * Us (ix2 u (j 1))

/-- An entry of the relation, with the index written by its coordinates. -/
theorem relation_apply (S : Mat I D) (K : Mat U D) (Mk : Mat I U) (Us : Mat U E) (i : Fin I) (q : Fin E) :
    relation S K Mk Us (ix2 i q) = ∑ u : Fin U, weight S K Mk i u * Us (ix2 u q) := rfl

/-- The summand of user number `n` in entry `(i, q)`, as a function on the naturals: zero past the last user. -/
def term (S : Mat I D) (K : Mat U D) (Mk : Mat I U) (Us : Mat U E) (i : Fin I) (q : Fin E) (n : ℕ) : EReal :=
  if h : n < U then weight S K Mk i ⟨n, h⟩ * Us (ix2 ⟨n, h⟩ q) else 0

theorem term_of_lt (S : Mat I D) (K : Mat U D) (Mk : Mat I U) (Us : Mat U E) (i : Fin I) (q : Fin E) (u : Fin U) :
    term S K Mk Us i q u.val = weight S K Mk i u * Us (ix2 u q) := by
  unfold term; rw [dif_pos u.isLt]

/-- An entry of the relation is the sum of its terms over the first `U` naturals. -/
theorem relation_eq_sum_range (S : Mat I D) (K : Mat U D) (Mk : Mat I U) (Us : Mat U E) (i : Fin I) (q : Fin E) :
    relation S K Mk Us (ix2 i q) = ∑ n ∈ range U, term S K Mk Us i q n := by
  rw [relation_apply, ← Fin.sum_univ_eq_sum_range (term S K Mk Us i q) U]
  exact Finset.sum_congr rfl fun u _ => (term_of_lt S K Mk Us i q u).symm

/-- With the users cut into `B` blocks of `J`, an entry of the relation is the running total after all `B` blocks. -/
theorem relation_eq_runningTotal (B J : ℕ) (hU : U = B * J) (S : Mat I D) (K : Mat U D) (Mk : Mat I U) (Us : Mat U E)
    (i : Fin I) (q : Fin E) :
    relation S K Mk Us (ix2 i q) = runningTotal J (term S K Mk Us i q) B := by
  subst hU
  rw [relation_eq_sum_range, runningTotal_all]

/-- A BLOCK'S SUM. Blocks `s`, `k`, `mk`, `us` (`P` items by `J` users) that read the arrays at item offset `io` and
    user offset `b·J` have, as the weighted sum of row `p`, the sum of block `b`'s terms of item `io + p`. -/
theorem block_sum {P J : ℕ} (S : Mat I D) (K : Mat U D) (Mk : Mat I U) (Us : Mat U E)
    (s : Mat P D) (k : Mat J D) (mk : Mat P J) (us : Mat J E) (io b : ℕ)
    (hi : ∀ p : Fin P, io + p.val < I) (hu : ∀ x : Fin J, b * J + x.val < U)
    (hs : ∀ (p : Fin P) (e : Fin D), s (ix2 p e) = S (ix2 ⟨io + p.val, hi p⟩ e))
    (hk : ∀ (x : Fin J) (e : Fin D), k (ix2 x e) = K (ix2 ⟨b * J + x.val, hu x⟩ e))
    (hm : ∀ (p : Fin P) (x : Fin J), mk (ix2 p x) = Mk (ix2 ⟨io + p.val, hi p⟩ ⟨b * J + x.val, hu x⟩))
    (hus : ∀ (x : Fin J) (q : Fin E), us (ix2 x q) = Us (ix2 ⟨b * J + x.val, hu x⟩ q))
    (p : Fin P) (q : Fin E) :
    ∑ x : Fin J, weight s k mk p x * us (ix2 x q)
      = ∑ x ∈ range J, term S K Mk Us ⟨io + p.val, hi p⟩ q (b * J + x) := by
  rw [← Fin.sum_univ_eq_sum_range (fun x => term S K Mk Us ⟨io + p.val, hi p⟩ q (b * J + x)) J]
  refine Finset.sum_congr rfl fun x _ => ?_
  rw [show b * J + x.val = (⟨b * J + x.val, hu x⟩ : Fin U).val from rfl, term_of_lt, hus]
  unfold weight
  rw [hm]
  simp only [hs, hk]

end Cert.Relation

end
-- ==== Proof.KernelStep.lean ====
/-
  The accumulate step at one entry.

  The body's stored value is `acc + (σ(s·kᵀ) ⊙ mk)·us` of the point's blocks: `s` (1024 items × 64), `k` (1024 users ×
  64 keys), `mk` (1024 × 1024 mask), `us` (1024 users × 64) and the running block `acc`. Over the extended reals a change
  of float format is the identity and a matrix product into the zero block is the plain sum of products, so at entry
  `(p, q)` the stored value is `acc[p,q] + ∑ₓ weight(p,x) · us[x,q]` with `weight` the relation's own weight taken on
  the blocks. The zero block reads `0` everywhere.
-/
import proofs.«153754_j90288802497140_1_alg».proof.Proof.Gen.KernelIdeal.Skeleton
import proofs.«153754_j90288802497140_1_alg».proof.Proof.LibDotCols
import proofs.«153754_j90288802497140_1_alg».proof.Proof.LibMaskedRelation
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.KernelIdeal.Step

open Cert.KernelIdeal Cert.KernelIdeal.Gen Cert.Relation

/-- The zero block reads `0` at every entry. -/
theorem zero_block_apply (j : S1024x64.Idx) : k0_pay1 (F := Ideal) j = 0 := by
  unfold k0_pay1
  refine (congrFun (shapeCast_self _ _) j).trans ?_
  exact Ideal.ofBits_zero_f32

/-- THE STEP AT AN ENTRY: the running block's entry plus the weighted sum of this point's user block. -/
theorem step_apply (s k : FVec Ideal S1024x64 .f32) (mk : FVec Ideal S1024x1024 .f32) (acc us : FVec Ideal S1024x64 .f32)
    (p : Fin 1024) (q : Fin 64) :
    k0_pay2 (F := Ideal) s k mk acc us (ix2 p q) = acc (ix2 p q) + ∑ x : Fin 1024, weight s k mk p x * us (ix2 x q) := by
  unfold k0_pay2
  refine (congrFun (shapeCast_self _ _) (ix2 p q)).trans ?_
  refine congrArg (acc (ix2 p q) + ·) ?_
  refine (Cert.Lib.DotCols.matmul_cols_apply (M := 1024) (K := 1024) (N := 64)
    dot_S1024x1024_S1024x64_S1024x64_1_0_0_1_n_n rfl none _ _ p q).trans ?_
  refine Finset.sum_congr rfl fun x _ => ?_
  refine congrArg (· * us (ix2 x q)) ?_
  refine congrArg (fun z => Ideal.logistic z * mk (ix2 p x)) ?_
  refine (Cert.Lib.DotCols.matmul_cols_apply (M := 1024) (K := 64) (N := 1024)
    dot_S1024x64_S64x1024_S1024x1024_1_0_0_1_n_n rfl none _ _ p x).trans ?_
  refine Finset.sum_congr rfl fun e _ => ?_
  refine congrArg (s (ix2 p e) * ·) ?_
  refine (transpose_ix2_apply _ _ e x).trans ?_
  exact congrFun (shapeCast_self k _) (ix2 x e)

/-- ONE POINT CONTINUES THE RUNNING TOTAL. Let the point's blocks read the arrays `S K Mk Us` at item offset `io` and
    user block `b` (1024 users wide), and let the running block hold, at every entry `(p, q)`, the running total of
    item `io + p`'s terms after `b` user blocks. Then the stored block holds the running total after `b + 1`. -/
theorem step_running (S : Mat 8192 64) (K : Mat 16384 64) (Mk : Mat 8192 16384) (Us : Mat 16384 64)
    (s k : FVec Ideal S1024x64 .f32) (mk : FVec Ideal S1024x1024 .f32) (acc us : FVec Ideal S1024x64 .f32) (io b : ℕ)
    (hi : ∀ p : Fin 1024, io + p.val < 8192) (hu : ∀ x : Fin 1024, b * 1024 + x.val < 16384)
    (hs : ∀ (p : Fin 1024) (e : Fin 64), s (ix2 p e) = S (ix2 ⟨io + p.val, hi p⟩ e))
    (hk : ∀ (x : Fin 1024) (e : Fin 64), k (ix2 x e) = K (ix2 ⟨b * 1024 + x.val, hu x⟩ e))
    (hm : ∀ (p x : Fin 1024), mk (ix2 p x) = Mk (ix2 ⟨io + p.val, hi p⟩ ⟨b * 1024 + x.val, hu x⟩))
    (hus : ∀ (x : Fin 1024) (q : Fin 64), us (ix2 x q) = Us (ix2 ⟨b * 1024 + x.val, hu x⟩ q))
    (hacc : ∀ (p : Fin 1024) (q : Fin 64),
      acc (ix2 p q) = Cert.BlockSum.runningTotal 1024 (term S K Mk Us ⟨io + p.val, hi p⟩ q) b)
    (p : Fin 1024) (q : Fin 64) :
    k0_pay2 (F := Ideal) s k mk acc us (ix2 p q)
      = Cert.BlockSum.runningTotal 1024 (term S K Mk Us ⟨io + p.val, hi p⟩ q) (b + 1) := by
  rw [step_apply, hacc, Cert.BlockSum.runningTotal_succ,
    block_sum S K Mk Us s k mk us io b hi hu hs hk hm hus p q]

/-- The same from the zero block, at the first user block: the running total after one block. -/
theorem step_running_first (S : Mat 8192 64) (K : Mat 16384 64) (Mk : Mat 8192 16384) (Us : Mat 16384 64)
    (s k : FVec Ideal S1024x64 .f32) (mk : FVec Ideal S1024x1024 .f32) (us : FVec Ideal S1024x64 .f32) (io : ℕ)
    (hi : ∀ p : Fin 1024, io + p.val < 8192) (hu : ∀ x : Fin 1024, 0 * 1024 + x.val < 16384)
    (hs : ∀ (p : Fin 1024) (e : Fin 64), s (ix2 p e) = S (ix2 ⟨io + p.val, hi p⟩ e))
    (hk : ∀ (x : Fin 1024) (e : Fin 64), k (ix2 x e) = K (ix2 ⟨0 * 1024 + x.val, hu x⟩ e))
    (hm : ∀ (p x : Fin 1024), mk (ix2 p x) = Mk (ix2 ⟨io + p.val, hi p⟩ ⟨0 * 1024 + x.val, hu x⟩))
    (hus : ∀ (x : Fin 1024) (q : Fin 64), us (ix2 x q) = Us (ix2 ⟨0 * 1024 + x.val, hu x⟩ q))
    (p : Fin 1024) (q : Fin 64) :
    k0_pay2 (F := Ideal) s k mk (k0_pay1 (F := Ideal)) us (ix2 p q)
      = Cert.BlockSum.runningTotal 1024 (term S K Mk Us ⟨io + p.val, hi p⟩ q) (0 + 1) :=
  step_running S K Mk Us s k mk (k0_pay1 (F := Ideal)) us io 0 hi hu hs hk hm hus
    (fun p' q' => (zero_block_apply (ix2 p' q')).trans (Cert.BlockSum.runningTotal_zero 1024 _).symm) p q

end Cert.KernelIdeal.Step

end
-- ==== Proof.KernelScratch.lean ====
/-
  The scratch block, point by point, is the running total.

  The grid has 8 row blocks of 1024 items by 16 user blocks of 1024 users; point `t` is row block `t / 16`, user block
  `t % 16`, visited in that order. At point `t` the four input blocks read the arrays at item offset `1024·(t/16)` and
  user offset `1024·(t%16)` (`items_block` … `users_block`: a block's coordinate is always block index × block size
  + the coordinate inside the block, and the block indices are decided once over the 128 points).

  By induction on the point, after point `t` the scratch holds at `(p, q)` the running total of item
  `1024·(t/16) + p`'s terms after `t % 16 + 1` user blocks: a row block's first point starts from the zero block, every
  later point continues what the point before left. At a row block's last point the output block is that same block:
  all 16 user blocks, which is the relation's entry.
-/
import proofs.«153754_j90288802497140_1_alg».proof.Proof.Gen.KernelIdeal.Frame
import proofs.«153754_j90288802497140_1_alg».proof.Proof.KernelPieces
import proofs.«153754_j90288802497140_1_alg».proof.Proof.KernelStep
import Idealize.ShloMosaic.Lib.Pipeline.Value

noncomputable section

open scoped BigOperators
open Idealize.ShloMosaic Idealize.ShloMosaic.TcCoe Idealize.SL.Sem Idealize.ShloMosaic.ValueIdx

namespace Cert.KernelIdeal.Scratch

open Cert.KernelIdeal Cert.KernelIdeal.Gen Cert.Relation Cert.BlockSum

variable (m : (ℓ : Loc nD τ sig) → Buf (Elt Ideal) ℓ)

/-! ## The four arrays as the region finds them -/

/-- The item features. -/
abbrev items (c : Dev nD) : Mat 8192 64 := V m c main_arg7
/-- The user keys, computed by the host before the region. -/
abbrev keys (c : Dev nD) : Mat 16384 64 := V m c main_v83
/-- The interaction mask. -/
abbrev mask (c : Dev nD) : Mat 8192 16384 := V m c main_arg3
/-- The user features. -/
abbrev users (c : Dev nD) : Mat 16384 64 := V m c main_arg6

/-! ## Which block of its array each window reads at point `t` -/

theorem block_index : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = t.val % 16
    ∧ win0_3.index t (0 : Fin 2) = t.val % 16 ∧ win0_3.index t (1 : Fin 2) = 0
    ∧ win0_4.index t (0 : Fin 2) = t.val / 16 ∧ win0_4.index t (1 : Fin 2) = 0 :=
  (by decide +kernel : ∀ t : Fin grid0.N, _)

theorem items_block (c : Dev nD) (t : Fin cfg0.N) (p : Fin 1024) (e : Fin 64) (h : 1024 * (t.val / 16) + p.val < 8192) :
    (iblk m c 0 t : Vec Ideal S1024x64 .f32) (ix2 p e) = items m c (ix2 ⟨1024 * (t.val / 16) + p.val, h⟩ e) := by
  unfold iblk
  rw [View.read_apply]
  show V m c main_arg7 _ = V m c main_arg7 _
  congr 1
  funext a
  apply Fin.ext
  match a with
  | ⟨0, _⟩ => show win0_0.index t (0 : Fin 2) * 1024 + 1 * p.val = 1024 * (t.val / 16) + p.val; rw [(block_index t).1]; omega
  | ⟨1, _⟩ => show win0_0.index t (1 : Fin 2) * 64 + 1 * e.val = e.val; rw [(block_index t).2.1]; omega

theorem keys_block (c : Dev nD) (t : Fin cfg0.N) (x : Fin 1024) (e : Fin 64) (h : t.val % 16 * 1024 + x.val < 16384) :
    (iblk m c 1 t : Vec Ideal S1024x64 .f32) (ix2 x e) = keys m c (ix2 ⟨t.val % 16 * 1024 + x.val, h⟩ e) := by
  unfold iblk
  rw [View.read_apply]
  show V m c main_v83 _ = V m c main_v83 _
  congr 1
  funext a
  apply Fin.ext
  match a with
  | ⟨0, _⟩ => show win0_1.index t (0 : Fin 2) * 1024 + 1 * x.val = t.val % 16 * 1024 + x.val; rw [(block_index t).2.2.1]; omega
  | ⟨1, _⟩ => show win0_1.index t (1 : Fin 2) * 64 + 1 * e.val = e.val; rw [(block_index t).2.2.2.1]; omega

theorem mask_block (c : Dev nD) (t : Fin cfg0.N) (p x : Fin 1024) (h : 1024 * (t.val / 16) + p.val < 8192)
    (h' : t.val % 16 * 1024 + x.val < 16384) :
    (iblk m c 2 t : Vec Ideal S1024x1024 .f32) (ix2 p x)
      = mask m c (ix2 ⟨1024 * (t.val / 16) + p.val, h⟩ ⟨t.val % 16 * 1024 + x.val, h'⟩) := by
  unfold iblk
  rw [View.read_apply]
  show V m c main_arg3 _ = V m c main_arg3 _
  congr 1
  funext a
  apply Fin.ext
  match a with
  | ⟨0, _⟩ => show win0_2.index t (0 : Fin 2) * 1024 + 1 * p.val = 1024 * (t.val / 16) + p.val; rw [(block_index t).2.2.2.2.1]; omega
  | ⟨1, _⟩ => show win0_2.index t (1 : Fin 2) * 1024 + 1 * x.val = t.val % 16 * 1024 + x.val; rw [(block_index t).2.2.2.2.2.1]; omega

theorem users_block (c : Dev nD) (t : Fin cfg0.N) (x : Fin 1024) (q : Fin 64) (h : t.val % 16 * 1024 + x.val < 16384) :
    (iblk m c 3 t : Vec Ideal S1024x64 .f32) (ix2 x q) = users m c (ix2 ⟨t.val % 16 * 1024 + x.val, h⟩ q) := by
  unfold iblk
  rw [View.read_apply]
  show V m c main_arg6 _ = V m c main_arg6 _
  congr 1
  funext a
  apply Fin.ext
  match a with
  | ⟨0, _⟩ => show win0_3.index t (0 : Fin 2) * 1024 + 1 * x.val = t.val % 16 * 1024 + x.val; rw [(block_index t).2.2.2.2.2.2.1]; omega
  | ⟨1, _⟩ => show win0_3.index t (1 : Fin 2) * 64 + 1 * q.val = q.val; rw [(block_index t).2.2.2.2.2.2.2.1]; omega

/-! ## The running total of a row -/

/-- Item number `r`'s running total in column `q` after `b` user blocks (zero for a row number past the last item, which no
    point reads). -/
def rowTotal (c : Dev nD) (r : ℕ) (q : Fin 64) (b : ℕ) : EReal :=
  if h : r < 8192 then runningTotal 1024 (term (items m c) (keys m c) (mask m c) (users m c) ⟨r, h⟩ q) b else 0

theorem rowTotal_of_lt (c : Dev nD) (r : ℕ) (q : Fin 64) (b : ℕ) (h : r < 8192) :
    rowTotal m c r q b = runningTotal 1024 (term (items m c) (keys m c) (mask m c) (users m c) ⟨r, h⟩ q) b := dif_pos h

theorem rowTotal_zero (c : Dev nD) (r : ℕ) (q : Fin 64) : rowTotal m c r q 0 = 0 := by
  unfold rowTotal
  split
  · exact runningTotal_zero _ _
  · rfl

/-- After all 16 user blocks a row's running total is the relation's entry. -/
theorem rowTotal_all (c : Dev nD) (r : Fin 8192) (q : Fin 64) :
    rowTotal m c r.val q 16 = relation (items m c) (keys m c) (mask m c) (users m c) (ix2 r q) := by
  rw [rowTotal_of_lt m c r.val q 16 r.isLt]
  exact (relation_eq_runningTotal 16 1024 rfl (items m c) (keys m c) (mask m c) (users m c) r q).symm

/-- ONE POINT. From a running block that holds the row totals after `t % 16` user blocks, the body's stored block at point `t`
    holds them after `t % 16 + 1`. -/
theorem point_step (c : Dev nD) (t : Fin cfg0.N) (acc : FVec Ideal S1024x64 .f32)
    (hacc : ∀ (p : Fin 1024) (q : Fin 64), acc (ix2 p q) = rowTotal m c (1024 * (t.val / 16) + p.val) q (t.val % 16))
    (p : Fin 1024) (q : Fin 64) :
    k0_pay2 (F := Ideal) (iblk m c 0 t) (iblk m c 1 t) (iblk m c 2 t) acc (iblk m c 3 t) (ix2 p q)
      = rowTotal m c (1024 * (t.val / 16) + p.val) q (t.val % 16 + 1) := by
  have hN : t.val < 128 := lt_of_lt_of_eq t.isLt (show cfg0.N = 128 from N_0)
  have hi : ∀ p : Fin 1024, 1024 * (t.val / 16) + p.val < 8192 := fun p => by have := p.isLt; omega
  have hu : ∀ x : Fin 1024, t.val % 16 * 1024 + x.val < 16384 := fun x => by have := x.isLt; omega
  rw [rowTotal_of_lt m c _ q _ (hi p)]
  exact Cert.KernelIdeal.Step.step_running (items m c) (keys m c) (mask m c) (users m c)
    (iblk m c 0 t) (iblk m c 1 t) (iblk m c 2 t) acc (iblk m c 3 t) (1024 * (t.val / 16)) (t.val % 16) hi hu
    (fun p e => items_block m c t p e (hi p)) (fun x e => keys_block m c t x e (hu x))
    (fun p x => mask_block m c t p x (hi p) (hu x)) (fun x q => users_block m c t x q (hu x))
    (fun p' q' => (hacc p' q').trans (rowTotal_of_lt m c _ q' _ (hi p'))) p q

/-- A row block's first point: the scratch ends at the totals after one user block. -/
theorem scratch_at_first (c : Dev nD) (t : Fin cfg0.N) (h0 : t.val % 16 = 0) (p : Fin 1024) (q : Fin 64) :
    (outsAt0 m c t.val t.isLt).2 (ix2 p q) = rowTotal m c (1024 * (t.val / 16) + p.val) q (t.val % 16 + 1) := by
  have h1 : ¬t.val % 16 = 15 := by omega
  rw [outsAt0_A m c t h0 h1]
  dsimp only
  rw [Cert.KernelIdeal.Pieces.scratch_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)]
  exact point_step m c t (k0_pay1 (F := Ideal))
    (fun p' q' => (Cert.KernelIdeal.Step.zero_block_apply (ix2 p' q')).trans (by rw [h0, rowTotal_zero])) p q

/-- What the point before left, restated at this point's row block and user block. -/
theorem carried (c : Dev nD) (t : Fin cfg0.N) (h0 : ¬t.val % 16 = 0)
    (prev : ∀ (p : Fin 1024) (q : Fin 64),
      (outsAt0 m c (t.val - 1) (Nat.lt_of_le_of_lt (Nat.sub_le _ _) t.isLt)).2 (ix2 p q)
        = rowTotal m c (1024 * ((t.val - 1) / 16) + p.val) q ((t.val - 1) % 16 + 1))
    (p : Fin 1024) (q : Fin 64) :
    (outsAt0 m c (t.val - 1) (Nat.lt_of_le_of_lt (Nat.sub_le _ _) t.isLt)).2 (ix2 p q)
      = rowTotal m c (1024 * (t.val / 16) + p.val) q (t.val % 16) := by
  rw [prev p q, show (t.val - 1) / 16 = t.val / 16 by omega, show (t.val - 1) % 16 + 1 = t.val % 16 by omega]

/-- A later point of a row block: the scratch continues what the point before left. -/
theorem scratch_at_later (c : Dev nD) (t : Fin cfg0.N) (h0 : ¬t.val % 16 = 0)
    (prev : ∀ (p : Fin 1024) (q : Fin 64),
      (outsAt0 m c (t.val - 1) (Nat.lt_of_le_of_lt (Nat.sub_le _ _) t.isLt)).2 (ix2 p q)
        = rowTotal m c (1024 * ((t.val - 1) / 16) + p.val) q ((t.val - 1) % 16 + 1))
    (p : Fin 1024) (q : Fin 64) :
    (outsAt0 m c t.val t.isLt).2 (ix2 p q) = rowTotal m c (1024 * (t.val / 16) + p.val) q (t.val % 16 + 1) := by
  by_cases h1 : t.val % 16 = 15
  · rw [outsAt0_C m c t h0 h1]
    dsimp only
    rw [Cert.KernelIdeal.Pieces.scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
    exact point_step m c t (outsAt0 m c (t.val - 1) (Nat.lt_of_le_of_lt (Nat.sub_le _ _) t.isLt)).2 (carried m c t h0 prev) p q
  · rw [outsAt0_B m c t h0 h1]
    dsimp only
    rw [Cert.KernelIdeal.Pieces.scratch_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2]
    exact point_step m c t (outsAt0 m c (t.val - 1) (Nat.lt_of_le_of_lt (Nat.sub_le _ _) t.isLt)).2 (carried m c t h0 prev) p q

/-- THE INVARIANT: after point `n` the scratch holds the row totals after `n % 16 + 1` user blocks. -/
theorem scratch_eq (c : Dev nD) : ∀ (n : ℕ) (hn : n < cfg0.N) (p : Fin 1024) (q : Fin 64),
    (outsAt0 m c n hn).2 (ix2 p q) = rowTotal m c (1024 * (n / 16) + p.val) q (n % 16 + 1) := by
  intro n
  induction n with
  | zero => exact fun hn p q => scratch_at_first m c ⟨0, hn⟩ (Nat.zero_mod 16) p q
  | succ n ih =>
    intro hn p q
    by_cases h0 : (n + 1) % 16 = 0
    · exact scratch_at_first m c ⟨n + 1, hn⟩ h0 p q
    · exact scratch_at_later m c ⟨n + 1, hn⟩ h0 (fun p' q' => ih (Nat.lt_of_succ_lt hn) p' q') p q

/-- A ROW BLOCK'S LAST POINT: the output block holds the relation's entries of that row block. -/
theorem out_at_last (c : Dev nD) (t : Fin cfg0.N) (h1 : t.val % 16 = 15) (p : Fin 1024) (q : Fin 64)
    (h : 1024 * (t.val / 16) + p.val < 8192) :
    (outsAt0 m c t.val t.isLt).1 (ix2 p q)
      = relation (items m c) (keys m c) (mask m c) (users m c) (ix2 ⟨1024 * (t.val / 16) + p.val, h⟩ q) := by
  have h0 : ¬t.val % 16 = 0 := by omega
  rw [outsAt0_C m c t h0 h1]
  dsimp only
  rw [Cert.KernelIdeal.Pieces.out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
  rw [point_step m c t (outsAt0 m c (t.val - 1) (Nat.lt_of_le_of_lt (Nat.sub_le _ _) t.isLt)).2 (carried m c t h0 (fun p' q' => scratch_eq m c (t.val - 1) (Nat.lt_of_le_of_lt (Nat.sub_le _ _) t.isLt) p' q')) p q, h1]
  exact rowTotal_all m c ⟨1024 * (t.val / 16) + p.val, h⟩ q

end Cert.KernelIdeal.Scratch

end
-- ==== Proof.KernelArray.lean ====
/-
  The region's result array is the relation.

  The output window's block at point `t` is rows `1024·(t/16) … 1024·(t/16) + 1023`, all 64 columns; it is written back
  at a row block's last point only (`t % 16 = 15`). What is written back there is the relation's entries of those rows
  (the output block of the last point holds all 16 user blocks' terms), read through the block's rectangle. Row `r` lies
  in the block written back at point `16·(r / 1024) + 15`, so the eight written blocks cover the array, which therefore
  ends holding the relation of the four arrays as the region found them.
-/
import proofs.«153754_j90288802497140_1_alg».proof.Proof.KernelScratch

noncomputable section

open scoped BigOperators
open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen Cert.Relation Cert.KernelIdeal.Scratch

variable (m : (ℓ : Loc nD τ sig) → Buf (Elt Ideal) ℓ)

/-- The relation of the four arrays as the region finds them, as contents of the result array. -/
abbrev result (c : Dev nD) : Buf (Elt Ideal) ((c : Thread nD τ).loc main_v84) :=
  relation (items m c) (keys m c) (mask m c) (users m c)

/-- WHAT A ROW BLOCK'S LAST POINT WRITES BACK is its block of the relation. -/
theorem flushed_eq (c : Dev nD) (t : Fin cfg0.N) (hf : (cfg0.win 4).flush t = true) :
    (dats m 0 c).flushed 4 t = ((cfg0.win 4).blk t).view.read (Elt Ideal) (result m c) := by
  have h15 : t.val % 16 = 15 := (flush0_4 t).mp hf
  have hN : t.val < 128 := lt_of_lt_of_eq t.isLt (show cfg0.N = 128 from N_0)
  show (cfg0.win 4).cut (grid0.coords t) ((dats m 0 c).after 4 t) = _
  rw [after0_4]
  funext j
  rw [View.read_apply]
  obtain ⟨p, q, rfl⟩ : ∃ (p : Fin 1024) (q : Fin 64), j = ix2 p q := ⟨j 0, j 1, eq_ix2 j⟩
  have hrow : 1024 * (t.val / 16) + p.val < 8192 := by have := p.isLt; omega
  -- the block's entry (p, q) is the staging buffer's entry (p, q) …
  have e : (cfg0.win 4).xinj (grid0.coords t) (ix2 p q) = (ix2 p q : S1024x64.Idx) :=
    funext fun a => match a with | ⟨0, _⟩ => rfl | ⟨1, _⟩ => rfl
  -- … and lands in the array at row 1024·(t/16) + p, column q
  have hidx : (ix2 ⟨1024 * (t.val / 16) + p.val, hrow⟩ q : S8192x64.Idx) = ((cfg0.win 4).blk t).view.emb (ix2 p q) := by
    funext a
    apply Fin.ext
    match a with
    | ⟨0, _⟩ =>
      show 1024 * (t.val / 16) + p.val = win0_4.index t (0 : Fin 2) * 1024 + 1 * p.val
      rw [(block_index t).2.2.2.2.2.2.2.2.1]; omega
    | ⟨1, _⟩ =>
      show q.val = win0_4.index t (1 : Fin 2) * 64 + 1 * q.val
      rw [(block_index t).2.2.2.2.2.2.2.2.2]; omega
  have key : (outsAt0 m c t.val t.isLt).1 (ix2 p q) = result m c (ix2 ⟨1024 * (t.val / 16) + p.val, hrow⟩ q) :=
    out_at_last m c t h15 p q hrow
  rw [hidx] at key
  -- with both arrays named, reading through the block is just these two index equations
  generalize result m c = R at key ⊢
  generalize (outsAt0 m c t.val t.isLt).1 = X at key ⊢
  show X ((cfg0.win 4).xinj (grid0.coords t) (ix2 p q)) = R (((cfg0.win 4).blk t).view.emb (ix2 p q))
  rw [e]
  exact key

/-- An index of the array is in point `t`'s block iff each coordinate is in the block's range on its axis. -/
theorem mem_block (t : Fin cfg0.N) (i : S8192x64.Idx) :
    i ∈ ((cfg0.win 4).blk t).view.set ↔ ∀ a : Fin 2, win0_4.index t a * S1024x64.size a ≤ (i a).val
      ∧ (i a).val < win0_4.index t a * S1024x64.size a + S1024x64.size a := by
  show i ∈ ((View.whole main_v84).slice (win0_4.rect t)).set ↔ _
  rw [View.set_slice_whole, Rect.mem_set_unit]
  exact Iff.rfl

/-- THE ARRAY after the region: the relation. -/
theorem final (c : Dev nD) : (dats m 0 c).arrAt 4 cfg0.N = result m c :=
  (dats m 0 c).arrAt_eq_of_cover 4 (result m c) (flushed_eq m c) fun i => by
    have hi0 : (i 0).val < 8192 := idx2_lt0 i
    have hi1 : (i 1).val < 64 := idx2_lt1 i
    have hlt : 16 * ((i 0).val / 1024) + 15 < cfg0.N := by
      rw [show cfg0.N = 128 from N_0]; omega
    refine ⟨⟨16 * ((i 0).val / 1024) + 15, hlt⟩, (flush0_4 _).mpr (by show (16 * ((i 0).val / 1024) + 15) % 16 = 15; omega), ?_⟩
    rw [mem_block]
    have e := block_index ⟨16 * ((i 0).val / 1024) + 15, hlt⟩
    intro a
    match a with
    | ⟨0, _⟩ =>
      show win0_4.index ⟨16 * ((i 0).val / 1024) + 15, hlt⟩ (0 : Fin 2) * 1024 ≤ (i 0).val
        ∧ (i 0).val < win0_4.index ⟨16 * ((i 0).val / 1024) + 15, hlt⟩ (0 : Fin 2) * 1024 + 1024
      rw [e.2.2.2.2.2.2.2.2.1]
      show (16 * ((i 0).val / 1024) + 15) / 16 * 1024 ≤ (i 0).val ∧ (i 0).val < (16 * ((i 0).val / 1024) + 15) / 16 * 1024 + 1024
      omega
    | ⟨1, _⟩ =>
      show win0_4.index ⟨16 * ((i 0).val / 1024) + 15, hlt⟩ (1 : Fin 2) * 64 ≤ (i 1).val
        ∧ (i 1).val < win0_4.index ⟨16 * ((i 0).val / 1024) + 15, hlt⟩ (1 : Fin 2) * 64 + 64
      rw [e.2.2.2.2.2.2.2.2.2]
      omega

end Cert.KernelIdeal.Array

end
-- ==== Proof.KernelTail.lean ====
/-
  The kernel program's results.

  Around the region the program is plain array code. Before it: the personal branch (results 0 and 1) and the user
  keys `K = Us·Wᵀ + b`. After it, twice: gather the user's feature row, add the gathered row of the region's result,
  multiply by the gathered item feature row, and sum each row (`socialScore`; results 2 and 3, for the positive and
  the negative item numbers). Row numbers are wrapped as jnp wraps a negative index before the gather (`wrapped`).

  The tail reads the memory the region leaves: every window's array at what the region computed for it (the four
  inputs unchanged, the result array at the relation), every other buffer as the lines before the region left it. So
  results 2 and 3 are `socialScore` of the launch arguments and of the relation of the launch arguments and the keys;
  results 0 and 1 are what the lines before the region left; the arguments end unchanged.
-/
import proofs.«153754_j90288802497140_1_alg».proof.Proof.KernelArray
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.Relation Cert.KernelIdeal.Scratch Cert.KernelIdeal.Array

/-! ## The host's functions -/

/-- The user keys: the user features times the transposed attention weights, plus the bias row. -/
def keysOf (Us : FVec Ideal S16384x64 .f32) (W : FVec Ideal S64x64 .f32) (b : FVec Ideal S64 .f32) : FVec Ideal S16384x64 .f32 :=
  addf (Host.dotGeneral (F := Ideal) dot_S16384x64_S64x64_S16384x64_1_0_0_1_n_n none Us
      (transpose S64x64 [1, 0] W transposes_S64x64_S64x64_1_0))
    (broadcastInDim S16384x64 ![0, 1] bcast_S1x64_S16384x64_0_1 (broadcastInDim S1x64 ![1] bcast_S64_S1x64_1 b))

/-- A list of row numbers as a gather's index column: a negative number first wrapped by the extent `n`. -/
def wrapped (n : BitVec 32) (x : IVec S4096 32) : IVec S4096x1 32 :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 n))) x)

/-- A social score per sample: (the user's feature row + the item's relation row) · the item's feature row, summed. -/
def socialScore (user item : IVec S4096 32) (Us : FVec Ideal S16384x64 .f32) (R S : FVec Ideal S8192x64 .f32) :
    FVec Ideal S4096 .f32 :=
  Host.reduceAdd (F := Ideal)
    (mulf (addf (Host.gather gather_S16384x64_S4096x1_S4096x64_1_0_n_n_0_1_164 Us (wrapped 16384#32 user))
        (Host.gather gather_S8192x64_S4096x1_S4096x64_1_0_n_n_0_1_164 R (wrapped 8192#32 item)))
      (Host.gather gather_S8192x64_S4096x1_S4096x64_1_0_n_n_0_1_164 S (wrapped 8192#32 item)))
    (constant (F := Ideal) S_ .f32 0x00000000#32) reducesTo_S4096x64_S4096_d1 h_S_

variable (m : (ℓ : Loc nD τ sig) → Buf (Elt Ideal) ℓ) (ρ : Dev nD → PrngReg)

/-! ## The keys the region finds -/

/-- The lines before the region leave the keys of the launch arguments in the region's second operand. -/
theorem keys_eq (c : Dev nD) :
    keys m c = keysOf (m ((c : Thread nD τ).loc main_arg6)) (m ((c : Thread nD τ).loc main_arg8)) (m ((c : Thread nD τ).loc main_arg9)) := by
  show StableHlo.after hostOps0 (fun b => m (c, b)) (Proc.devRef .tc main_v83) = _
  after_results_simp <;> rfl

/-- So the region's result array ends at the relation of the launch arguments and their keys. -/
theorem final_args (c : Dev nD) :
    (dats m 0 c).arrAt 4 cfg0.N = (relation (m ((c : Thread nD τ).loc main_arg7)) (keysOf (m ((c : Thread nD τ).loc main_arg6)) (m ((c : Thread nD τ).loc main_arg8)) (m ((c : Thread nD τ).loc main_arg9))) (m ((c : Thread nD τ).loc main_arg3)) (m ((c : Thread nD τ).loc main_arg6))) := by
  rw [final m c]
  show relation (items m c) (keys m c) (mask m c) (users m c) = _
  rw [keys_eq m c, show items m c = (m ((c : Thread nD τ).loc main_arg7)) from V_main_arg7 m c,
    show mask m c = (m ((c : Thread nD τ).loc main_arg3)) from V_main_arg3 m c, show users m c = (m ((c : Thread nD τ).loc main_arg6)) from V_main_arg6 m c]

/-! ## The memory the tail reads -/

/-- What the lines after the region read: the windows' arrays as the region left them, everything else as before. -/
def entry (c : Dev nD) : Valuation τ sig (Elt Ideal) :=
  Pipeline.withArrays spec0 c (V0 m c) fun w => (dats m 0 c).arrAt w cfg0.N

theorem entry_arg0 (c : Dev nD) : entry m c (Proc.devRef .tc main_arg0) = (m ((c : Thread nD τ).loc main_arg0)) :=
  (Pipeline.withArrays_of_ne spec0 c (V0 m c) _ main_arg0 (by decide)).trans (V_main_arg0 m c)
theorem entry_arg1 (c : Dev nD) : entry m c (Proc.devRef .tc main_arg1) = (m ((c : Thread nD τ).loc main_arg1)) :=
  (Pipeline.withArrays_of_ne spec0 c (V0 m c) _ main_arg1 (by decide)).trans (V_main_arg1 m c)
theorem entry_arg2 (c : Dev nD) : entry m c (Proc.devRef .tc main_arg2) = (m ((c : Thread nD τ).loc main_arg2)) :=
  (Pipeline.withArrays_of_ne spec0 c (V0 m c) _ main_arg2 (by decide)).trans (V_main_arg2 m c)
theorem entry_arg6 (c : Dev nD) : entry m c (Proc.devRef .tc main_arg6) = (m ((c : Thread nD τ).loc main_arg6)) :=
  (Pipeline.withArrays_arr spec0 winFacts0.arr_inj c (V0 m c) _ 3).trans
    (((dats m 0 c).arrAt_in 3 rfl _).trans ((A_eq m c 3).trans (V_main_arg6 m c)))
theorem entry_arg7 (c : Dev nD) : entry m c (Proc.devRef .tc main_arg7) = (m ((c : Thread nD τ).loc main_arg7)) :=
  (Pipeline.withArrays_arr spec0 winFacts0.arr_inj c (V0 m c) _ 0).trans
    (((dats m 0 c).arrAt_in 0 rfl _).trans ((A_eq m c 0).trans (V_main_arg7 m c)))
theorem entry_v84 (c : Dev nD) : entry m c (Proc.devRef .tc main_v84) = (relation (m ((c : Thread nD τ).loc main_arg7)) (keysOf (m ((c : Thread nD τ).loc main_arg6)) (m ((c : Thread nD τ).loc main_arg8)) (m ((c : Thread nD τ).loc main_arg9))) (m ((c : Thread nD τ).loc main_arg3)) (m ((c : Thread nD τ).loc main_arg6))) :=
  (Pipeline.withArrays_arr spec0 winFacts0.arr_inj c (V0 m c) _ 4).trans (final_args m c)

/-! ## The four float results -/

/-- Result 2: the social score of the positive items. -/
theorem result2 (c : Dev nD) :
    Pipeline.afterTail₀ cfgs (dats m) 0 (V0 m) [hostOps1] c main_v108
      = socialScore (m ((c : Thread nD τ).loc main_arg0)) (m ((c : Thread nD τ).loc main_arg1)) (m ((c : Thread nD τ).loc main_arg6)) (relation (m ((c : Thread nD τ).loc main_arg7)) (keysOf (m ((c : Thread nD τ).loc main_arg6)) (m ((c : Thread nD τ).loc main_arg8)) (m ((c : Thread nD τ).loc main_arg9))) (m ((c : Thread nD τ).loc main_arg3)) (m ((c : Thread nD τ).loc main_arg6))) (m ((c : Thread nD τ).loc main_arg7)) := by
  unfold Pipeline.afterTail₀
  show StableHlo.after hostOps1 (entry m c) (Proc.devRef .tc main_v108) = _
  after_results_simp
  rw [entry_arg0 m c, entry_arg1 m c, entry_arg6 m c, entry_arg7 m c, entry_v84 m c]
  rfl

/-- Result 3: the social score of the negative items. -/
theorem result3 (c : Dev nD) :
    Pipeline.afterTail₀ cfgs (dats m) 0 (V0 m) [hostOps1] c main_v125
      = socialScore (m ((c : Thread nD τ).loc main_arg0)) (m ((c : Thread nD τ).loc main_arg2)) (m ((c : Thread nD τ).loc main_arg6)) (relation (m ((c : Thread nD τ).loc main_arg7)) (keysOf (m ((c : Thread nD τ).loc main_arg6)) (m ((c : Thread nD τ).loc main_arg8)) (m ((c : Thread nD τ).loc main_arg9))) (m ((c : Thread nD τ).loc main_arg3)) (m ((c : Thread nD τ).loc main_arg6))) (m ((c : Thread nD τ).loc main_arg7)) := by
  unfold Pipeline.afterTail₀
  show StableHlo.after hostOps1 (entry m c) (Proc.devRef .tc main_v125) = _
  after_results_simp
  rw [entry_arg0 m c, entry_arg2 m c, entry_arg6 m c, entry_arg7 m c, entry_v84 m c]
  rfl

/-- No line after the region writes a buffer the lines before it wrote, and none of those is a window's array. -/
theorem kept_v76 (c : Dev nD) : Pipeline.afterTail₀ cfgs (dats m) 0 (V0 m) [hostOps1] c main_v76 = V m c main_v76 := by
  unfold Pipeline.afterTail₀
  rw [StableHlo.after_of_forall_not_mem (b := Proc.devRef .tc main_v76) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v76 (by exact (by decide : ∀ w, Pipeline.arrRef spec0 w ≠ main_v76))]
theorem kept_v78 (c : Dev nD) : Pipeline.afterTail₀ cfgs (dats m) 0 (V0 m) [hostOps1] c main_v78 = V m c main_v78 := by
  unfold Pipeline.afterTail₀
  rw [StableHlo.after_of_forall_not_mem (b := Proc.devRef .tc main_v78) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v78 (by exact (by decide : ∀ w, Pipeline.arrRef spec0 w ≠ main_v78))]

/-! ## The run, read -/

/-- Every weakly fair execution of the kernel program terminates with the four float results at these values and
    the arguments unchanged. -/
theorem run : θ_run defs (onTc (τ := τ) (main (F := Ideal))) ⟨m, fun _ => 0, ρ⟩ fun r => ∀ c : Dev nD,
      r.2.mem ((c : Thread nD τ).loc main_v76) = V m c main_v76
      ∧ r.2.mem ((c : Thread nD τ).loc main_v78) = V m c main_v78
      ∧ r.2.mem ((c : Thread nD τ).loc main_v108) = socialScore (m ((c : Thread nD τ).loc main_arg0)) (m ((c : Thread nD τ).loc main_arg1)) (m ((c : Thread nD τ).loc main_arg6)) (relation (m ((c : Thread nD τ).loc main_arg7)) (keysOf (m ((c : Thread nD τ).loc main_arg6)) (m ((c : Thread nD τ).loc main_arg8)) (m ((c : Thread nD τ).loc main_arg9))) (m ((c : Thread nD τ).loc main_arg3)) (m ((c : Thread nD τ).loc main_arg6))) (m ((c : Thread nD τ).loc main_arg7))
      ∧ r.2.mem ((c : Thread nD τ).loc main_v125) = socialScore (m ((c : Thread nD τ).loc main_arg0)) (m ((c : Thread nD τ).loc main_arg2)) (m ((c : Thread nD τ).loc main_arg6)) (relation (m ((c : Thread nD τ).loc main_arg7)) (keysOf (m ((c : Thread nD τ).loc main_arg6)) (m ((c : Thread nD τ).loc main_arg8)) (m ((c : Thread nD τ).loc main_arg9))) (m ((c : Thread nD τ).loc main_arg3)) (m ((c : Thread nD τ).loc main_arg6))) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun _ h c => ⟨
      ((h c).2 main_v76 (Pipeline.mem_restRefs_of main_v76 (by decide) (by decide))).trans (kept_v76 m c),
      ((h c).2 main_v78 (Pipeline.mem_restRefs_of main_v78 (by decide) (by decide))).trans (kept_v78 m c),
      ((h c).2 main_v108 (Pipeline.mem_restRefs_of main_v108 (by decide) (by decide))).trans (result2 m c),
      ((h c).2 main_v125 (Pipeline.mem_restRefs_of main_v125 (by decide) (by decide))).trans (result3 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      ((h c).1 0).trans (((dats m 0 c).arrAt_in 0 rfl _).trans ((A_eq m c 0).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c))⟩)
    (run_main m ρ)

end Cert.KernelIdeal.Tail

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«153754_j90288802497140_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.RefRelation.lean ====
/-
  The reference's relation is the relation.

  The reference computes `R = ((1 / (1 + exp(−(S·Kᵀ)))) ⊙ Mk) · Us` with three whole-array operations: a product of the
  item features with the transposed keys, the logistic function spelt as negate, exponential, add one, divide into one
  (the same function of an extended real as the one-word logistic: that is its definition, corners at ±∞ included),
  the elementwise product with the mask, and a product with the user features. Over the extended reals each product is
  the plain sum of products, so entry `(p, q)` is `∑ᵤ σ(∑ₑ S[p,e]·K[u,e]) · Mk[p,u] · Us[u,q]`: the relation, entry by
  entry, for any arrays.
-/
import proofs.«153754_j90288802497140_1_alg».proof.Proof.Gen.ReferenceIdeal
import proofs.«153754_j90288802497140_1_alg».proof.Proof.LibDotColsHost
import proofs.«153754_j90288802497140_1_alg».proof.Proof.LibMaskedRelation
import Idealize.ShloMosaic.Lib.IdealHost
import Idealize.ShloMosaic.Lib.ValueLayout

noncomputable section

open scoped BigOperators
open Idealize.ShloMosaic Idealize.ShloMosaic.ValueIdx

namespace Cert.ReferenceIdeal.RefValue

open Cert.ReferenceIdeal Cert.ReferenceIdeal.Gen Cert.Relation

/-- The reference's three operations on the item features `S`, the keys `K`, the mask and the user features. -/
def region (S : FVec Ideal S8192x64 .f32) (K : FVec Ideal S16384x64 .f32) (Mk : FVec Ideal S8192x16384 .f32)
    (Us : FVec Ideal S16384x64 .f32) : FVec Ideal S8192x64 .f32 :=
  Host.dotGeneral (F := Ideal) dot_S8192x16384_S16384x64_S8192x64_1_0_0_1_n_n none
    (mulf (Host.divf (F := Ideal) (broadcastInDim S8192x16384 ![] bcast_S_S8192x16384 (constant (F := Ideal) S_ .f32 0x3F800000#32))
      (addf (broadcastInDim S8192x16384 ![] bcast_S_S8192x16384 (constant (F := Ideal) S_ .f32 0x3F800000#32))
        (Host.exp (F := Ideal) (Host.negf (F := Ideal) (Host.dotGeneral (F := Ideal) dot_S8192x64_S64x16384_S8192x16384_1_0_0_1_n_n none S
          (transpose S64x16384 [1, 0] K transposes_S16384x64_S64x16384_1_0)))))) Mk) Us

/-- The broadcast constant `1.0` reads the extended real one at every entry. -/
theorem one_apply (j : S8192x16384.Idx) :
    broadcastInDim S8192x16384 ![] bcast_S_S8192x16384 (constant (F := Ideal) S_ .f32 0x3F800000#32) j = (1 : EReal) :=
  (broadcastInDim_scalar_apply _ _ j).trans Ideal.ofBits_one_f32

/-- The scores `S·Kᵀ` at `(p, u)`: the inner product of item `p`'s features with user `u`'s keys. -/
theorem scores_apply (S : FVec Ideal S8192x64 .f32) (K : FVec Ideal S16384x64 .f32) (p : Fin 8192) (u : Fin 16384) :
    Host.dotGeneral (F := Ideal) dot_S8192x64_S64x16384_S8192x16384_1_0_0_1_n_n none S
        (transpose S64x16384 [1, 0] K transposes_S16384x64_S64x16384_1_0) (ix2 p u)
      = ∑ e : Fin 64, S (ix2 p e) * K (ix2 u e) := by
  refine (Cert.Lib.DotColsHost.dotGeneral_cols_apply (M := 8192) (K := 64) (N := 16384)
    dot_S8192x64_S64x16384_S8192x16384_1_0_0_1_n_n rfl none _ S _ p u).trans ?_
  refine Finset.sum_congr rfl fun e _ => ?_
  exact congrArg (S (ix2 p e) * ·) (transpose_ix2_apply K _ e u)

/-- THE REFERENCE'S RELATION IS THE RELATION, for any arrays. -/
theorem region_eq (S : FVec Ideal S8192x64 .f32) (K : FVec Ideal S16384x64 .f32) (Mk : FVec Ideal S8192x16384 .f32)
    (Us : FVec Ideal S16384x64 .f32) : region S K Mk Us = relation S K Mk Us := by
  funext j
  obtain ⟨p, q, rfl⟩ : ∃ (p : Fin 8192) (q : Fin 64), j = ix2 p q := ⟨j 0, j 1, eq_ix2 j⟩
  rw [relation_apply]
  unfold region
  refine (Cert.Lib.DotColsHost.dotGeneral_cols_apply (M := 8192) (K := 16384) (N := 64)
    dot_S8192x16384_S16384x64_S8192x64_1_0_0_1_n_n rfl none _ _ Us p q).trans ?_
  refine Finset.sum_congr rfl fun u _ => ?_
  refine congrArg (· * Us (ix2 u q)) ?_
  unfold weight
  refine congrArg (· * Mk (ix2 p u)) ?_
  show Ideal.div (broadcastInDim S8192x16384 ![] bcast_S_S8192x16384 (constant (F := Ideal) S_ .f32 0x3F800000#32) (ix2 p u))
      (broadcastInDim S8192x16384 ![] bcast_S_S8192x16384 (constant (F := Ideal) S_ .f32 0x3F800000#32) (ix2 p u)
        + Ideal.exp (-(Host.dotGeneral (F := Ideal) dot_S8192x64_S64x16384_S8192x16384_1_0_0_1_n_n none S
          (transpose S64x16384 [1, 0] K transposes_S16384x64_S64x16384_1_0) (ix2 p u)))) = _
  rw [one_apply, scores_apply]
  rfl

end Cert.ReferenceIdeal.RefValue

end
-- ==== Proof.lean ====
/-
  A recommender's forward pass: the item–user relation `R = (σ(S·Kᵀ) ⊙ mask)·Us` computed by a kernel that streams the
  mask in 1024 × 1024 tiles, against the same relation computed by three whole-array operations; around it both
  programs run the same array code (a personal branch of gathers and two-layer linear maps, the user keys
  `K = Us·Wᵀ + b`, and two social scores that gather rows of `R`).

  Over the extended reals:
  * the kernel accumulates each row's sum over the 16384 users in 16 consecutive blocks of 1024, from a zero block, in
    a scratch carried across the grid's second axis; the running total after all 16 blocks is the whole sum (a finite
    sum regrouped in a commutative monoid; `0 + x = x`) — nothing is asked of the entries, so the inputs' finiteness is
    never used;
  * the kernel's one-word logistic and the reference's `1 / (1 + exp(−z))` are one function of an extended real, by
    definition, corners at ±∞ included; a change of float format is the identity; a matrix product into the zero block,
    and the host's product, are the plain sums of products;
  * the lines before the region (results 0 and 1, the keys) and after it (results 2 and 3, which read `R` through the
    same gathers) are the same operations in both programs, so equal region results give equal results.

  The kernel's frames are the generated ones; the reference's frame is its generated run with the results dropped;
  the ideal pass rewrote nothing, so the kernel's idealization is the program's own text and `preserves` is trivial.
-/
import proofs.«153754_j90288802497140_1_alg».proof.Defs
import proofs.«153754_j90288802497140_1_alg».proof.Proof.Gen.Kernel
import proofs.«153754_j90288802497140_1_alg».proof.Proof.Gen.Kernel.Frame
import proofs.«153754_j90288802497140_1_alg».proof.Proof.Gen.KernelIdeal
import proofs.«153754_j90288802497140_1_alg».proof.Proof.Gen.KernelIdeal.Frame
import proofs.«153754_j90288802497140_1_alg».proof.Proof.Gen.ReferenceIdeal
import proofs.«153754_j90288802497140_1_alg».proof.Proof.Gen.Pre_finite_inputs
import proofs.«153754_j90288802497140_1_alg».proof.Proof.Gen.ReferenceIdeal.Run
import proofs.«153754_j90288802497140_1_alg».proof.Proof.KernelTail
import proofs.«153754_j90288802497140_1_alg».proof.Proof.RefRelation
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its five results dropped. -/
theorem frame_reference : Cert.frame_ReferenceIdeal := fun m ρ _ =>
  (θ_run Cert.ReferenceIdeal.defs _ _).mono (fun _ h c => (h c).2.2.2.2.2)
    (Cert.ReferenceIdeal.Value.run (F := Ideal) m ρ)

theorem preserves : Cert.preserves_Kernel_KernelIdeal := trivial

set_option maxHeartbeats 3200000 in
/-- From memories that agree on the arguments both programs end with the same five results: results 0 and 1 what the
    shared lines before the region compute, results 2 and 3 the social scores over the relation of the arguments, the
    last the first argument itself. -/
theorem algebraic : Cert.algebraic_KernelIdeal_ReferenceIdeal := by
  intro m ρ m' ρ' _ hagree
  refine ⟨fun c => Cert.KernelIdeal.Gen.V m c Cert.KernelIdeal.main_v76,
    fun c => Cert.KernelIdeal.Gen.V m c Cert.KernelIdeal.main_v78,
    fun c => Cert.KernelIdeal.Tail.socialScore (m (((c : Dev Cert.KernelIdeal.nD).tc : Thread Cert.KernelIdeal.nD Cert.KernelIdeal.τ).loc Cert.KernelIdeal.main_arg0)) (m (((c : Dev Cert.KernelIdeal.nD).tc : Thread Cert.KernelIdeal.nD Cert.KernelIdeal.τ).loc Cert.KernelIdeal.main_arg1)) (m (((c : Dev Cert.KernelIdeal.nD).tc : Thread Cert.KernelIdeal.nD Cert.KernelIdeal.τ).loc Cert.KernelIdeal.main_arg6)) (Cert.Relation.relation (m (((c : Dev Cert.KernelIdeal.nD).tc : Thread Cert.KernelIdeal.nD Cert.KernelIdeal.τ).loc Cert.KernelIdeal.main_arg7)) (Cert.KernelIdeal.Tail.keysOf (m (((c : Dev Cert.KernelIdeal.nD).tc : Thread Cert.KernelIdeal.nD Cert.KernelIdeal.τ).loc Cert.KernelIdeal.main_arg6)) (m (((c : Dev Cert.KernelIdeal.nD).tc : Thread Cert.KernelIdeal.nD Cert.KernelIdeal.τ).loc Cert.KernelIdeal.main_arg8)) (m (((c : Dev Cert.KernelIdeal.nD).tc : Thread Cert.KernelIdeal.nD Cert.KernelIdeal.τ).loc Cert.KernelIdeal.main_arg9))) (m (((c : Dev Cert.KernelIdeal.nD).tc : Thread Cert.KernelIdeal.nD Cert.KernelIdeal.τ).loc Cert.KernelIdeal.main_arg3)) (m (((c : Dev Cert.KernelIdeal.nD).tc : Thread Cert.KernelIdeal.nD Cert.KernelIdeal.τ).loc Cert.KernelIdeal.main_arg6))) (m (((c : Dev Cert.KernelIdeal.nD).tc : Thread Cert.KernelIdeal.nD Cert.KernelIdeal.τ).loc Cert.KernelIdeal.main_arg7)),
    fun c => Cert.KernelIdeal.Tail.socialScore (m (((c : Dev Cert.KernelIdeal.nD).tc : Thread Cert.KernelIdeal.nD Cert.KernelIdeal.τ).loc Cert.KernelIdeal.main_arg0)) (m (((c : Dev Cert.KernelIdeal.nD).tc : Thread Cert.KernelIdeal.nD Cert.KernelIdeal.τ).loc Cert.KernelIdeal.main_arg2)) (m (((c : Dev Cert.KernelIdeal.nD).tc : Thread Cert.KernelIdeal.nD Cert.KernelIdeal.τ).loc Cert.KernelIdeal.main_arg6)) (Cert.Relation.relation (m (((c : Dev Cert.KernelIdeal.nD).tc : Thread Cert.KernelIdeal.nD Cert.KernelIdeal.τ).loc Cert.KernelIdeal.main_arg7)) (Cert.KernelIdeal.Tail.keysOf (m (((c : Dev Cert.KernelIdeal.nD).tc : Thread Cert.KernelIdeal.nD Cert.KernelIdeal.τ).loc Cert.KernelIdeal.main_arg6)) (m (((c : Dev Cert.KernelIdeal.nD).tc : Thread Cert.KernelIdeal.nD Cert.KernelIdeal.τ).loc Cert.KernelIdeal.main_arg8)) (m (((c : Dev Cert.KernelIdeal.nD).tc : Thread Cert.KernelIdeal.nD Cert.KernelIdeal.τ).loc Cert.KernelIdeal.main_arg9))) (m (((c : Dev Cert.KernelIdeal.nD).tc : Thread Cert.KernelIdeal.nD Cert.KernelIdeal.τ).loc Cert.KernelIdeal.main_arg3)) (m (((c : Dev Cert.KernelIdeal.nD).tc : Thread Cert.KernelIdeal.nD Cert.KernelIdeal.τ).loc Cert.KernelIdeal.main_arg6))) (m (((c : Dev Cert.KernelIdeal.nD).tc : Thread Cert.KernelIdeal.nD Cert.KernelIdeal.τ).loc Cert.KernelIdeal.main_arg7)),
    fun c => m (((c : Dev Cert.KernelIdeal.nD).tc : Thread Cert.KernelIdeal.nD Cert.KernelIdeal.τ).loc Cert.KernelIdeal.main_arg0), ?_, ?_⟩
  · exact (θ_run Cert.KernelIdeal.defs _ _).mono
      (fun _ h c => ⟨(h c).1, (h c).2.1, (h c).2.2.1, (h c).2.2.2.1, (h c).2.2.2.2.1, (h c).2.2.2.2⟩)
      (Cert.KernelIdeal.Tail.run m ρ)
  · refine (θ_run Cert.ReferenceIdeal.defs _ _).mono (fun _ h c => ?_)
      (Cert.ReferenceIdeal.Value.run (F := Ideal) m' ρ')
    obtain ⟨a0, a1, a2, a3, a4, a5, a6, a7, a8, a9, a10, a11, a12, a13⟩ := hagree c
    obtain ⟨h0, h1, h2, h3, h4, hrest⟩ := h c
    refine ⟨h0.trans ?_, h1.trans ?_, h2.trans ?_, h3.trans ?_, h4.trans a0, hrest⟩
    · -- result 0: the lines before the region, of arguments that agree
      rw [a0, a1, a4, a5, a10, a11, a12, a13]
      show _ = StableHlo.after Cert.KernelIdeal.Gen.hostOps0 (fun b => m (c, b)) (Proc.devRef .tc Cert.KernelIdeal.main_v76)
      symm
      after_results_simp <;> rfl
    · -- result 1
      rw [a0, a2, a4, a5, a10, a11, a12, a13]
      show _ = StableHlo.after Cert.KernelIdeal.Gen.hostOps0 (fun b => m (c, b)) (Proc.devRef .tc Cert.KernelIdeal.main_v78)
      symm
      after_results_simp <;> rfl
    · -- result 2: the same social score, over the reference's relation, which is the relation
      rw [a0, a1, a3, a6, a7, a8, a9]
      show _ = Cert.KernelIdeal.Tail.socialScore _ _ _ _ _
      rw [← Cert.ReferenceIdeal.RefValue.region_eq]
      rfl
    · -- result 3
      rw [a0, a2, a3, a6, a7, a8, a9]
      show _ = Cert.KernelIdeal.Tail.socialScore _ _ _ _ _
      rw [← Cert.ReferenceIdeal.RefValue.region_eq]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
